-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x1024x1024 .f32) (main_arg1 : FVec F S4x4096x1024 .f32) (main_arg2 : FVec F S1024x1024 .f32) (main_arg3 : FVec F S1024 .f32) (main_arg4 : FVec F S1024x1024 .f32) (main_arg5 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x1024x1024 : Shape := ⟨3, ![4, 1024, 1024]⟩
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x128x1024 : Shape := ⟨3, ![1, 128, 1024]⟩
abbrev S1024x1 : Shape := ⟨2, ![1024, 1]⟩
abbrev S128x1024 : Shape := ⟨2, ![128, 1024]⟩
abbrev S1024x128 : Shape := ⟨2, ![1024, 128]⟩

abbrev nBuf : Space → Nat
  | .hbm => 13
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | .local _ .vmem, ⟨13, _⟩ => ⟨S1024x1024, .bf16⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v46 : BitVec 1 := Scalar.cmpi .eq arg1 c31_i32
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x1024_S128x1024 : S1x1024.Broadcasts S128x1024
  reduces_S1024x128_S1024 : S1024x128.Reduces [1] S1024
  shapeCasts_S1024_S1024x1 : S1024.ShapeCasts S1024x1
  broadcasts_S1024x1_S1024x128 : S1024x1.Broadcasts S1024x128
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S128x1024_S1024x1024_S128x1024_1_0_0_1_n_n_wf : DotDims.WF S128x1024 S1024x1024 S128x1024 [1] [0] [0] [1] [] []
  dot_S1024x1024_S128x1024_S1024x128_1_1_0_0_n_n_wf : DotDims.WF S1024x1024 S128x1024 S1024x128 [1] [1] [0] [0] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S4x4096x1024.size a
  hwx0_1 : ∀ i : grid0.Coords, EltTy.bits .f32 = 32 ∨ (Rect.block (s := S4x4096x1024) S1x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x1024x1024.size a
  hwx0_6 : ∀ i : grid0.Coords, EltTy.bits .f32 = 32 ∨ (Rect.block (s := S4x1024x1024) S1x1024x1024.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x1024x1024 : Shape := ⟨3, ![4, 1024, 1024]⟩
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x1024x4096 : Shape := ⟨3, ![4, 1024, 4096]⟩
abbrev S_ : Shape := ⟨0, ![]⟩
abbrev S4x1024 : Shape := ⟨2, ![4, 1024]⟩
abbrev S4x1024x1 : Shape := ⟨3, ![4, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4x1024x1024, .f32⟩
  | .hbm, ⟨7, _⟩ => ⟨S1x1x1024, .f32⟩
  | .hbm, ⟨8, _⟩ => ⟨S4x1024x1024, .f32⟩
  | .hbm, ⟨9, _⟩ => ⟨S4x1024x1024, .f32⟩
  | .hbm, ⟨10, _⟩ => ⟨S4x4096x1024, .f32⟩
  | .hbm, ⟨11, _⟩ => ⟨S1x1x1024, .f32⟩
  | .hbm, ⟨12, _⟩ => ⟨S4x4096x1024, .f32⟩
  | .hbm, ⟨13, _⟩ => ⟨S4x4096x1024, .f32⟩
  | .hbm, ⟨14, _⟩ => ⟨S4x1024x4096, .f32⟩
  | .hbm, ⟨15, _⟩ => ⟨S_, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024x1, .f32⟩
  | .hbm, ⟨21, _⟩ => ⟨S4x1024x4096, .f32⟩
  | .hbm, ⟨22, _⟩ => ⟨S4x1024x4096, .f32⟩
  | .hbm, ⟨23, _⟩ => ⟨S4x1024x4096, .f32⟩
  | .hbm, ⟨24, _⟩ => ⟨S_, .f32⟩
  | .hbm, ⟨25, _⟩ => ⟨S4x1024, .f32⟩
  | .hbm, ⟨26, _⟩ => ⟨S4x1024x1, .f32⟩
  | .hbm, ⟨27, _⟩ => ⟨S4x1024x4096, .f32⟩
  | .hbm, ⟨28, _⟩ => ⟨S4x1024x4096, .f32⟩
  | .hbm, ⟨29, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  bcast_S1x1x1024_S4x4096x1024_0_1_2 : S1x1x1024.BroadcastsInDim S4x4096x1024 (![0, 1, 2] : Fin 3 → Fin S4x4096x1024.rank)
  reducesTo_S4x1024x4096_S4x1024_d2 : S4x1024x4096.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x4096_0_1_2 : S4x1024x1.BroadcastsInDim S4x1024x4096 (![0, 1, 2] : Fin 3 → Fin S4x1024x4096.rank)
  dot_S4x1024x1024_S1024x1024_S4x1024x1024_2_1_01_0_n_n_wf : DotDims.WF S4x1024x1024 S1024x1024 S4x1024x1024 [2] [1] [0, 1] [0] [] []
  dot_S4x4096x1024_S1024x1024_S4x4096x1024_2_1_01_0_n_n_wf : DotDims.WF S4x4096x1024 S1024x1024 S4x4096x1024 [2] [1] [0, 1] [0] [] []
  dot_S4x1024x1024_S4x4096x1024_S4x1024x4096_2_2_1_1_0_0_wf : DotDims.WF S4x1024x1024 S4x4096x1024 S4x1024x4096 [2] [2] [1] [1] [0] [0]
  dot_S4x1024x4096_S4x4096x1024_S4x1024x1024_2_1_1_2_0_0_wf : DotDims.WF S4x1024x4096 S4x4096x1024 S4x1024x1024 [2] [1] [1] [2] [0] [0]

variable [Facts₀]

def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x1024x1024_S4x4096x1024_S4x1024x4096_2_2_1_1_0_0 : DotDims S4x1024x1024 S4x4096x1024 S4x1024x4096 where
  lhsContracting := [2]
  rhsContracting := [2]
  lhsNonContracting := [1]
  rhsNonContracting := [1]
  lhsBatch := [0]
  rhsBatch := [0]
  wf := dot_S4x1024x1024_S4x4096x1024_S4x1024x4096_2_2_1_1_0_0_wf
def dot_S4x1024x4096_S4x4096x1024_S4x1024x1024_2_1_1_2_0_0 : DotDims S4x1024x4096 S4x4096x1024 S4x1024x1024 where
  lhsContracting := [2]
  rhsContracting := [1]
  lhsNonContracting := [1]
  rhsNonContracting := [2]
  lhsBatch := [0]
  rhsBatch := [0]
  wf := dot_S4x1024x4096_S4x4096x1024_S4x1024x1024_2_1_1_2_0_0_wf

class Facts : Prop extends Facts₀ where

variable [Facts]
-- ==== Proof.KernelPieces.lean ====
import proofs.«174058_j3530463117322_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one grid point leaves in the kernel's carried buffers, as pure functions of what it found there.

  The body, at every point, projects the point's block of documents to keys, scores the cached projected queries
  against them, and merges the block into the running maximum, normaliser and weighted sum; at the first point of a
  batch it first resets the three running buffers and caches the projected queries; at the last it also writes the
  quotient of the weighted sum by the normaliser to the output block. The three functions below are the merged
  maximum, normaliser and weighted sum in terms of the body's payloads; the lemmas say that what each control case of
  the body leaves in each buffer is that function of the case's inputs.
-/
namespace Cert.KernelIdeal.Step
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after a block: from the block of documents "x1", the key weights and bias "x4", "x5", the cached
    projected queries "qb" and the running maximum before, "m0". -/
def mStep (x1 : Vec F S1x128x1024 .f32) (x4 : Vec F S1024x1024 .bf16) (x5 : Vec F S1x1024 .f32)
    (qb : Vec F S1024x1024 .bf16) (m0 : Vec F S1024x1 .f32) : Vec F S1024x1 .f32 :=
  k0_pay2 (k0_pay10 x1 x4 x5 qb m0)

/-- The running normaliser after a block, from the normaliser before, "l0". -/
def lStep (x1 : Vec F S1x128x1024 .f32) (x4 : Vec F S1024x1024 .bf16) (x5 : Vec F S1x1024 .f32)
    (qb : Vec F S1024x1024 .bf16) (m0 l0 : Vec F S1024x1 .f32) : Vec F S1024x1 .f32 :=
  k0_pay13 x1 x4 x5 qb m0 m0 l0

/-- The running weighted sum after a block, from the weighted sum before, "a0". -/
def aStep (x1 : Vec F S1x128x1024 .f32) (x4 : Vec F S1024x1024 .bf16) (x5 : Vec F S1x1024 .f32)
    (qb : Vec F S1024x1024 .bf16) (m0 : Vec F S1024x1 .f32) (a0 : Vec F S1024x1024 .f32) : Vec F S1024x1024 .f32 :=
  k0_pay1 (k0_pay8 x1) (k0_pay11 x1 x4 x5 qb m0 m0) (k0_pay12 x1 x4 x5 qb m0) a0

/-! ## A middle point: the merge over what the point before left -/

theorem sout0_B_0_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = mStep x1 x4 x5 xs3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem sout0_B_1_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = lStep x1 x4 x5 xs3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem sout0_B_2_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = aStep x1 x4 x5 xs3 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

/-! ## The last point of a batch: the same merge, and the output block -/

theorem sout0_C_0_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = mStep x1 x4 x5 xs3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem sout0_C_1_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = lStep x1 x4 x5 xs3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem sout0_C_2_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = aStep x1 x4 x5 xs3 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem out0_C_6_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (aStep x1 x4 x5 xs3 xs0 xs2) (lStep x1 x4 x5 xs3 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz3]
  unfold aStep lStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

/-! ## The first point of a batch: the merge over the reset buffers and the freshly projected queries -/

theorem sout0_A_3_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = k0_pay7 x0 x2 x3 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2]

theorem sout0_A_0_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = mStep x1 x4 x5 (k0_pay7 x0 x2 x3) k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

theorem sout0_A_1_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = lStep x1 x4 x5 (k0_pay7 x0 x2 x3) k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1) hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

theorem sout0_A_2_eq (c : Dev nD) (i : grid0.Coords) (arg2 : Memref sig .tc .vmem S1x1024x1024 .f32) (harg2 : arg2.IsWhole) (arg3 : Memref sig .tc .vmem S1x128x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (x0 : Vec F S1x1024x1024 .f32) (x1 : Vec F S1x128x1024 .f32) (x2 : Vec F S1024x1024 .bf16) (x3 : Vec F S1x1024 .f32) (x4 : Vec F S1024x1024 .bf16) (x5 : Vec F S1x1024 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = aStep x1 x4 x5 (k0_pay7 x0 x2 x3) k0_pay4 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1024x1024) hz2]
  try unfold mStep
  try unfold lStep
  try unfold aStep
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x128x1024) hz3, View.ld_unit_zero (S := S1024x1024) hz2, View.ld_unit_zero (S := S1x1024) hz2, View.ld_unit_zero (S := S1024x1) hz2, View.readCov_unit_zero (S := S1024x1024) _ hz2, View.readCov_unit_zero (S := S1024x1) _ hz2]

end Cert.KernelIdeal.Step
end
-- ==== Proof.AttnSpec.lean ====
/-
  The running merge of an attention row, on the extended reals.

  A row of scores is passed block by block. The state is a running maximum "m", a running normaliser "l" and, for
  one column of values, a running weighted sum "acc". Passing a block with scores "sk" and values "vk", the new
  maximum is "m' = max m (the block's largest score)", what was accumulated under the old maximum is rescaled by
  "exp (m - m')", and the block's own terms "exp (sk c - m')" (times "vk c" for the weighted sum) are added. The
  state before the first block is "(⊥, 0, 0)". The output after "k" blocks is "acc * (1 / l)".
-/
import Idealize.ShloMosaic.PureOps.Ideal
import Mathlib.Data.EReal.Operations
import Mathlib.Data.EReal.Inv

noncomputable section

open scoped BigOperators

namespace Cert.AttnSpec

open Idealize.ShloMosaic

variable {C : Type} [Fintype C]

/-- The largest score of a block ("⊥" for an empty block). -/
def blockMax (sk : C → EReal) : EReal := Finset.univ.fold max ⊥ sk

/-- The running maximum after a block. -/
def mNext (m : EReal) (sk : C → EReal) : EReal := max m (blockMax sk)

/-- The factor by which what was accumulated under the old maximum is rescaled. -/
def alpha (m : EReal) (sk : C → EReal) : EReal := Ideal.exp (m - mNext m sk)

/-- A block's term: "exp (score - new maximum)". -/
def weight (m : EReal) (sk : C → EReal) (c : C) : EReal := Ideal.exp (sk c - mNext m sk)

/-- The running normaliser after a block. -/
def lNext (m l : EReal) (sk : C → EReal) : EReal := alpha m sk * l + ∑ c, weight m sk c

/-- The running weighted sum after a block. -/
def accNext (m a : EReal) (sk vk : C → EReal) : EReal := alpha m sk * a + ∑ c, weight m sk c * vk c

/-- The running maximum and normaliser after "k" blocks. -/
def st (s : ℕ → C → EReal) : ℕ → EReal × EReal
  | 0 => (⊥, 0)
  | k + 1 => (mNext (st s k).1 (s k), lNext (st s k).1 (st s k).2 (s k))

/-- The running weighted sum after "k" blocks. -/
def acc (s v : ℕ → C → EReal) : ℕ → EReal
  | 0 => 0
  | k + 1 => accNext (st s k).1 (acc s v k) (s k) (v k)

/-- The merge's output after "k" blocks. -/
def out (s v : ℕ → C → EReal) (k : ℕ) : EReal := acc s v k * Ideal.div 1 (st s k).2

end Cert.AttnSpec

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«174058_j3530463117322_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowLayouts.lean ====
/-
  Three re-layouts of a matrix read at an entry, for any element type.

  A [1, b] row broadcast to [a, b] reads, at (p, q), the row's entry q. An array [1, a, b] cast to the matrix
  [a, b] reads, at (p, q), the array at (0, p, q), and the cast back reads, at (0, p, q), the matrix at (p, q):
  a leading unit axis does not move the row-major position.
-/
import Idealize.ShloMosaic.Lib.ValueIdx
import Idealize.ShloMosaic.Lib.Pipeline.Value

noncomputable section

namespace LibRowLayouts

open Idealize.ShloMosaic Idealize.ShloMosaic.ValueIdx

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An array [1, a, b] cast to the matrix [a, b] reads, at (p, q), the array at (0, p, q). -/
theorem shapeCast_drop_unit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) := by
  refine shapeCast_apply x h _ _ ?_
  rw [Shape.rowMajor_val_three, Shape.rowMajor_val_two]
  show (0 * a + p.val) * b + q.val = p.val * b + q.val
  rw [Nat.zero_mul, Nat.zero_add]

/-- A matrix [a, b] cast to the array [1, a, b] reads, at (0, p, q), the matrix at (p, q). -/
theorem shapeCast_add_unit_apply {α : Type} {a b : ℕ} (x : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ x h (ix3 z p q) = x (ix2 p q) := by
  refine shapeCast_apply x h _ _ ?_
  rw [Shape.rowMajor_val_three, Shape.rowMajor_val_two]
  show p.val * b + q.val = (z.val * a + p.val) * b + q.val
  have hz : z.val = 0 := by have := z.isLt; omega
  rw [hz, Nat.zero_mul, Nat.zero_add]

end LibRowLayouts

end
-- ==== Proof.KernelStepIdeal.lean ====
/-
  The body's arithmetic, read entry by entry on the extended reals.

  A grid point's body projects its block of 128 documents to keys ("x · Wᵀ + b"), scores the cached projected queries
  against them, and merges the block into three running quantities per query row: the maximum "m' = max m (largest
  score of the block)", the normaliser "l' = exp (m - m') * l + sum of exp (s - m')" and, per feature column, the
  weighted sum "a' = exp (m - m') * a + sum of exp (s - m') * document entry". Read at an index, each stored value is
  the corresponding step of the running merge of "Cert.AttnSpec" applied to the scores of that row against the block;
  a product of matrices is the plain sum over the contracted axis, a row or column broadcast reads its one row or
  column, and a maximum or sum along a row is the fold or the sum over the row's entries.
-/
import proofs.«174058_j3530463117322_2_alg».proof.Proof.KernelPieces
import proofs.«174058_j3530463117322_2_alg».proof.Proof.AttnSpec
import proofs.«174058_j3530463117322_2_alg».proof.Proof.LibMatmulIdx
import proofs.«174058_j3530463117322_2_alg».proof.Proof.LibMatmulNT
import proofs.«174058_j3530463117322_2_alg».proof.Proof.LibColumnOps
import proofs.«174058_j3530463117322_2_alg».proof.Proof.LibKeepdims
import proofs.«174058_j3530463117322_2_alg».proof.Proof.LibRowLayouts
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.StepIdeal
open Cert.KernelIdeal Cert.KernelIdeal.Gen Cert.KernelIdeal.Step

/-! ## The four contractions' operand indices -/

theorem dq_l0 (j : S1024x1024.Idx) (k : dot_S1024x1024_S1024x1024_S1024x1024_1_0_0_1_n_n.contr.Idx) : (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dq_l1 (j : S1024x1024.Idx) (k : dot_S1024x1024_S1024x1024_S1024x1024_1_0_0_1_n_n.contr.Idx) : (dot_S1024x1024_S1024x1024_S1024x1024_1_0_0_1_n_n.lhsIdx j k 1).val = (k ⟨0, by decide⟩).val :=
  dot_S1024x1024_S1024x1024_S1024x1024_1_0_0_1_n_n.lhsIdx_val_of_single rfl j k
theorem dq_r0 (j : S1024x1024.Idx) (k : dot_S1024x1024_S1024x1024_S1024x1024_1_0_0_1_n_n.contr.Idx) : (dot_S1024x1024_S1024x1024_S1024x1024_1_0_0_1_n_n.rhsIdx j k 0).val = (k ⟨0, by decide⟩).val :=
  dot_S1024x1024_S1024x1024_S1024x1024_1_0_0_1_n_n.rhsIdx_val_of_single rfl j k
theorem dq_r1 (j : S1024x1024.Idx) (k : dot_S1024x1024_S1024x1024_S1024x1024_1_0_0_1_n_n.contr.Idx) : (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem dk_l0 (j : S128x1024.Idx) (k : dot_S128x1024_S1024x1024_S128x1024_1_0_0_1_n_n.contr.Idx) : (dot_S128x1024_S1024x1024_S128x1024_1_0_0_1_n_n.lhsIdx j k 0).val = (j 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem dk_l1 (j : S128x1024.Idx) (k : dot_S128x1024_S1024x1024_S128x1024_1_0_0_1_n_n.contr.Idx) : (dot_S128x1024_S1024x1024_S128x1024_1_0_0_1_n_n.lhsIdx j k 1).val = (k ⟨0, by decide⟩).val :=
  dot_S128x1024_S1024x1024_S128x1024_1_0_0_1_n_n.lhsIdx_val_of_single rfl j k
theorem dk_r0 (j : S128x1024.Idx) (k : dot_S128x1024_S1024x1024_S128x1024_1_0_0_1_n_n.contr.Idx) : (dot_S128x1024_S1024x1024_S128x1024_1_0_0_1_n_n.rhsIdx j k 0).val = (k ⟨0, by decide⟩).val :=
  dot_S128x1024_S1024x1024_S128x1024_1_0_0_1_n_n.rhsIdx_val_of_single rfl j k
theorem dk_r1 (j : S128x1024.Idx) (k : dot_S128x1024_S1024x1024_S128x1024_1_0_0_1_n_n.contr.Idx) : (dot_S128x1024_S1024x1024_S128x1024_1_0_0_1_n_n.rhsIdx j k 1).val = (j 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

theorem ds_l0 (j : S1024x128.Idx) (k : dot_S1024x1024_S128x1024_S1024x128_1_1_0_0_n_n.contr.Idx) : (dot_S1024x1024_S128x1024_S1024x128_1_1_0_0_n_n.lhsIdx j k 0).val = (j 0).val := by
  unfold DotDims.lhsIdx
  rw [dif_neg (show ¬(0 : Fin S1024x1024.rank) ∈ dot_S1024x1024_S128x1024_S1024x128_1_1_0_0_n_n.lhsBatch by decide), dif_pos (show (0 : Fin S1024x1024.rank) ∈ dot_S1024x1024_S128x1024_S1024x128_1_1_0_0_n_n.lhsNonContracting by decide)]
  rfl
theorem ds_l1 (j : S1024x128.Idx) (k : dot_S1024x1024_S128x1024_S1024x128_1_1_0_0_n_n.contr.Idx) : (dot_S1024x1024_S128x1024_S1024x128_1_1_0_0_n_n.lhsIdx j k 1).val = (k ⟨0, by decide⟩).val :=
  dot_S1024x1024_S128x1024_S1024x128_1_1_0_0_n_n.lhsIdx_val_of_single rfl j k
theorem ds_r0 (j : S1024x128.Idx) (k : dot_S1024x1024_S128x1024_S1024x128_1_1_0_0_n_n.contr.Idx) : (dot_S1024x1024_S128x1024_S1024x128_1_1_0_0_n_n.rhsIdx j k 0).val = (j 1).val := by
  unfold DotDims.rhsIdx
  rw [dif_neg (show ¬(0 : Fin S128x1024.rank) ∈ dot_S1024x1024_S128x1024_S1024x128_1_1_0_0_n_n.rhsBatch by decide), dif_pos (show (0 : Fin S128x1024.rank) ∈ dot_S1024x1024_S128x1024_S1024x128_1_1_0_0_n_n.rhsNonContracting by decide)]
  rfl
theorem ds_r1 (j : S1024x128.Idx) (k : dot_S1024x1024_S128x1024_S1024x128_1_1_0_0_n_n.contr.Idx) : (dot_S1024x1024_S128x1024_S1024x128_1_1_0_0_n_n.rhsIdx j k 1).val = (k ⟨0, by decide⟩).val :=
  dot_S1024x1024_S128x1024_S1024x128_1_1_0_0_n_n.rhsIdx_val_of_single rfl j k

theorem dp_l0 (j : S1024x1024.Idx) (k : dot_S1024x128_S128x1024_S1024x1024_1_0_0_1_n_n.contr.Idx) : (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dp_l1 (j : S1024x1024.Idx) (k : dot_S1024x128_S128x1024_S1024x1024_1_0_0_1_n_n.contr.Idx) : (dot_S1024x128_S128x1024_S1024x1024_1_0_0_1_n_n.lhsIdx j k 1).val = (k ⟨0, by decide⟩).val :=
  dot_S1024x128_S128x1024_S1024x1024_1_0_0_1_n_n.lhsIdx_val_of_single rfl j k
theorem dp_r0 (j : S1024x1024.Idx) (k : dot_S1024x128_S128x1024_S1024x1024_1_0_0_1_n_n.contr.Idx) : (dot_S1024x128_S128x1024_S1024x1024_1_0_0_1_n_n.rhsIdx j k 0).val = (k ⟨0, by decide⟩).val :=
  dot_S1024x128_S128x1024_S1024x1024_1_0_0_1_n_n.rhsIdx_val_of_single rfl j k
theorem dp_r1 (j : S1024x1024.Idx) (k : dot_S1024x128_S128x1024_S1024x1024_1_0_0_1_n_n.contr.Idx) : (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-! ## A block's keys and scores -/

/-- The key of document row "n" of the point's block "x1": its projection by the transposed key weights "x4", plus the bias row "x5". -/
def keyOf (x1 : Vec Ideal S1x128x1024 .f32) (x4 : Vec Ideal S1024x1024 .bf16) (x5 : Vec Ideal S1x1024 .f32)
    (n : Fin 128) (e : Fin 1024) : EReal :=
  (∑ d : Fin 1024, x1 (ix3 (0 : Fin 1) n d) * x4 (ix2 d e)) + x5 (ix2 (0 : Fin 1) e)

/-- The scores of cached query row "i" against the block's 128 keys. -/
def scoreOf (x1 : Vec Ideal S1x128x1024 .f32) (x4 : Vec Ideal S1024x1024 .bf16) (x5 : Vec Ideal S1x1024 .f32)
    (qb : Vec Ideal S1024x1024 .bf16) (i : Fin 1024) : Fin 128 → EReal :=
  fun n => ∑ e : Fin 1024, qb (ix2 i e) * keyOf x1 x4 x5 n e

/-! ## The payloads read at an index -/

/-- The projected queries cached at a batch's first point: the block of queries times the transposed weights, plus the bias row. -/
theorem pay7_apply (x0 : Vec Ideal S1x1024x1024 .f32) (x2 : Vec Ideal S1024x1024 .bf16) (x3 : Vec Ideal S1x1024 .f32) (i e : Fin 1024) :
    k0_pay7 (F := Ideal) x0 x2 x3 (ix2 i e)
      = (∑ d : Fin 1024, x0 (ix3 (0 : Fin 1) i d) * x2 (ix2 d e)) + x3 (ix2 (0 : Fin 1) e) := by
  unfold k0_pay7
  simp only [shapeCast_self]
  refine congrArg₂ (fun a b : EReal => a + b) ?_ ?_
  · refine (LibMatmulIdx.matmul2_apply (φ₁ := .bf16) (φ₂ := .bf16) dot_S1024x1024_S1024x1024_S1024x1024_1_0_0_1_n_n rfl rfl dq_l0 dq_l1 dq_r0 dq_r1 none _ _ (ix2 i e)).trans ?_
    exact Finset.sum_congr rfl fun d _ => congrArg (· * x2 (ix2 d e)) (LibRowLayouts.shapeCast_drop_unit_apply x0 _ i d)
  · exact LibRowLayouts.broadcastTo_row_apply x3 _ i e

/-- The reset running maximum is minus infinity everywhere. -/
theorem pay4_apply (y : S1024x1.Idx) : k0_pay4 (F := Ideal) y = ⊥ := by
  unfold k0_pay4
  rw [shapeCast_self]
  show Ideal.ofBits .f32 0xFF800000#32 = ⊥
  simp [Ideal.ofBits, Ideal.ieee]

/-- The reset running normaliser is zero everywhere. -/
theorem pay5_apply (y : S1024x1.Idx) : k0_pay5 (F := Ideal) y = 0 := by
  unfold k0_pay5
  rw [shapeCast_self]
  exact Ideal.ofBits_zero_f32

/-- The reset running weighted sum is zero everywhere. -/
theorem pay6_apply (y : S1024x1024.Idx) : k0_pay6 (F := Ideal) y = 0 := by
  unfold k0_pay6
  rw [shapeCast_self]
  exact Ideal.ofBits_zero_f32

/-! ## The intermediate values read at an index -/

/-- The word of minus infinity denotes the bottom of the extended reals. -/
theorem negInf_word : Ideal.ofBits .f32 0xFF800000#32 = ⊥ := by
  simp [Ideal.ofBits, Ideal.ieee]

/-- The block of documents as a matrix: row "n", column "d" of the point's block. -/
theorem pay8_apply (x1 : Vec Ideal S1x128x1024 .f32) (n : Fin 128) (d : Fin 1024) :
    k0_pay8 (F := Ideal) x1 (ix2 n d) = x1 (ix3 (0 : Fin 1) n d) := by
  unfold k0_pay8
  exact LibRowLayouts.shapeCast_drop_unit_apply x1 _ n d

/-- The block's scores at (query row "i", row "n" of the block): the cached query row against the key of row "n". -/
theorem pay9_apply (x1 : Vec Ideal S1x128x1024 .f32) (x4 : Vec Ideal S1024x1024 .bf16) (x5 : Vec Ideal S1x1024 .f32)
    (qb : Vec Ideal S1024x1024 .bf16) (i : Fin 1024) (n : Fin 128) :
    k0_pay9 (F := Ideal) x1 x4 x5 qb (ix2 i n) = scoreOf x1 x4 x5 qb i n := by
  unfold k0_pay9
  simp only [shapeCast_self]
  refine (LibMatmulNT.matmul_nt_zero_apply (φ₁ := .bf16) (φ₂ := .bf16) dot_S1024x1024_S128x1024_S1024x128_1_1_0_0_n_n rfl rfl ds_l0 ds_l1 ds_r0 ds_r1 none _ _ (ix2 i n)).trans ?_
  unfold scoreOf
  refine Finset.sum_congr rfl fun e _ => congrArg (fun u : EReal => qb (ix2 i e) * u) ?_
  unfold keyOf
  refine congrArg₂ (fun a b : EReal => a + b) ?_ ?_
  · refine (LibMatmulIdx.matmul2_apply (φ₁ := .bf16) (φ₂ := .bf16) dot_S128x1024_S1024x1024_S128x1024_1_0_0_1_n_n rfl rfl dk_l0 dk_l1 dk_r0 dk_r1 none _ _ (ix2 n e)).trans ?_
    exact Finset.sum_congr rfl fun d _ => congrArg (fun u : EReal => u * x4 (ix2 d e)) (pay8_apply x1 n d)
  · exact LibRowLayouts.broadcastTo_row_apply x5 _ n e

/-- The merged maximum before its store: the larger of the maximum before and the block's largest score. -/
theorem pay10_apply (x1 : Vec Ideal S1x128x1024 .f32) (x4 : Vec Ideal S1024x1024 .bf16) (x5 : Vec Ideal S1x1024 .f32)
    (qb : Vec Ideal S1024x1024 .bf16) (m0 : Vec Ideal S1024x1 .f32) (i : Fin 1024) (z : Fin 1) :
    k0_pay10 (F := Ideal) x1 x4 x5 qb m0 (ix2 i z) = Cert.AttnSpec.mNext (m0 (ix2 i z)) (scoreOf x1 x4 x5 qb i) := by
  unfold k0_pay10 Cert.AttnSpec.mNext Cert.AttnSpec.blockMax
  refine congrArg (max (m0 (ix2 i z))) ?_
  refine (LibKeepdims.shapeCast_col_apply _ _ i z).trans ?_
  refine (LibColumnOps.max_axis1_apply (φ := .f32) _ _ _ _ _ i).trans ?_
  rw [negInf_word]
  exact congrArg (fun g => Finset.fold max ⊥ g Finset.univ) (funext fun n => pay9_apply x1 x4 x5 qb i n)

/-- The rescaling factor of row "i": "exp (maximum before - merged maximum)". -/
theorem pay11_apply (x1 : Vec Ideal S1x128x1024 .f32) (x4 : Vec Ideal S1024x1024 .bf16) (x5 : Vec Ideal S1x1024 .f32)
    (qb : Vec Ideal S1024x1024 .bf16) (m0 m1 : Vec Ideal S1024x1 .f32) (i : Fin 1024) (z : Fin 1) :
    k0_pay11 (F := Ideal) x1 x4 x5 qb m0 m1 (ix2 i z)
      = Ideal.exp (m1 (ix2 i z) - Cert.AttnSpec.mNext (m0 (ix2 i z)) (scoreOf x1 x4 x5 qb i)) := by
  unfold k0_pay11
  exact congrArg (fun u : EReal => Ideal.exp (m1 (ix2 i z) - u)) (pay10_apply x1 x4 x5 qb m0 i z)

/-- The block's terms at (query row "i", row "n" of the block): "exp (score - merged maximum)". -/
theorem pay12_apply (x1 : Vec Ideal S1x128x1024 .f32) (x4 : Vec Ideal S1024x1024 .bf16) (x5 : Vec Ideal S1x1024 .f32)
    (qb : Vec Ideal S1024x1024 .bf16) (m0 : Vec Ideal S1024x1 .f32) (i : Fin 1024) (n : Fin 128) :
    k0_pay12 (F := Ideal) x1 x4 x5 qb m0 (ix2 i n)
      = Cert.AttnSpec.weight (m0 (ix2 i (0 : Fin 1))) (scoreOf x1 x4 x5 qb i) n := by
  unfold k0_pay12 Cert.AttnSpec.weight
  refine congrArg₂ (fun a b : EReal => Ideal.exp (a - b)) (pay9_apply x1 x4 x5 qb i n) ?_
  exact (LibColumnOps.broadcastTo_col_apply _ _ i n).trans (pay10_apply x1 x4 x5 qb m0 i 0)

/-- The merged maximum of row "i": the larger of the maximum before and the block's largest score. -/
theorem mStep_apply (x1 : Vec Ideal S1x128x1024 .f32) (x4 : Vec Ideal S1024x1024 .bf16) (x5 : Vec Ideal S1x1024 .f32)
    (qb : Vec Ideal S1024x1024 .bf16) (m0 : Vec Ideal S1024x1 .f32) (i : Fin 1024) (z : Fin 1) :
    mStep (F := Ideal) x1 x4 x5 qb m0 (ix2 i z) = Cert.AttnSpec.mNext (m0 (ix2 i z)) (scoreOf x1 x4 x5 qb i) := by
  unfold mStep k0_pay2
  rw [shapeCast_self]
  exact pay10_apply x1 x4 x5 qb m0 i z

/-- The merged normaliser of row "i". -/
theorem lStep_apply (x1 : Vec Ideal S1x128x1024 .f32) (x4 : Vec Ideal S1024x1024 .bf16) (x5 : Vec Ideal S1x1024 .f32)
    (qb : Vec Ideal S1024x1024 .bf16) (m0 l0 : Vec Ideal S1024x1 .f32) (i : Fin 1024) (z : Fin 1) :
    lStep (F := Ideal) x1 x4 x5 qb m0 l0 (ix2 i z)
      = Cert.AttnSpec.lNext (m0 (ix2 i z)) (l0 (ix2 i z)) (scoreOf x1 x4 x5 qb i) := by
  obtain rfl : z = 0 := Subsingleton.elim _ _
  unfold lStep k0_pay13 Cert.AttnSpec.lNext Cert.AttnSpec.alpha
  rw [shapeCast_self]
  refine congrArg₂ (fun a b : EReal => a + b) ?_ ?_
  · exact congrArg (fun u : EReal => u * l0 (ix2 i 0)) (pay11_apply x1 x4 x5 qb m0 m0 i 0)
  · refine (LibKeepdims.shapeCast_col_apply _ _ i 0).trans ?_
    refine (LibKeepdims.sum_axis1_apply (φ := .f32) _ _ _ _ _ i).trans ?_
    exact Finset.sum_congr rfl fun n _ => pay12_apply x1 x4 x5 qb m0 i n

/-- The merged weighted sum of row "i", column "d": the block's values are column "d" of its documents. -/
theorem aStep_apply (x1 : Vec Ideal S1x128x1024 .f32) (x4 : Vec Ideal S1024x1024 .bf16) (x5 : Vec Ideal S1x1024 .f32)
    (qb : Vec Ideal S1024x1024 .bf16) (m0 : Vec Ideal S1024x1 .f32) (a0 : Vec Ideal S1024x1024 .f32) (i d : Fin 1024) :
    aStep (F := Ideal) x1 x4 x5 qb m0 a0 (ix2 i d)
      = Cert.AttnSpec.accNext (m0 (ix2 i (0 : Fin 1))) (a0 (ix2 i d)) (scoreOf x1 x4 x5 qb i)
          (fun n => x1 (ix3 (0 : Fin 1) n d)) := by
  unfold aStep k0_pay1 Cert.AttnSpec.accNext Cert.AttnSpec.alpha
  rw [shapeCast_self]
  refine congrArg₂ (fun a b : EReal => a + b) ?_ ?_
  · refine congrArg (fun u : EReal => u * a0 (ix2 i d)) ?_
    exact (LibColumnOps.broadcastTo_col_apply _ _ i d).trans (pay11_apply x1 x4 x5 qb m0 m0 i 0)
  · refine (LibMatmulIdx.matmul2_apply (φ₁ := .bf16) (φ₂ := .bf16) dot_S1024x128_S128x1024_S1024x1024_1_0_0_1_n_n rfl rfl dp_l0 dp_l1 dp_r0 dp_r1 none _ _ (ix2 i d)).trans ?_
    exact Finset.sum_congr rfl fun n _ =>
      congrArg₂ (fun a b : EReal => a * b) (pay12_apply x1 x4 x5 qb m0 i n) (pay8_apply x1 n d)

/-- The output block: the weighted sum over the normaliser of its row. -/
theorem pay3_apply (a : Vec Ideal S1024x1024 .f32) (l : Vec Ideal S1024x1 .f32) (z : Fin 1) (i d : Fin 1024) :
    k0_pay3 (F := Ideal) a l (ix3 z i d) = Ideal.div (a (ix2 i d)) (l (ix2 i (0 : Fin 1))) := by
  unfold k0_pay3
  refine (LibRowLayouts.shapeCast_add_unit_apply _ _ z i d).trans ?_
  exact congrArg (Ideal.div (a (ix2 i d))) (LibColumnOps.broadcastTo_col_apply l _ i d)

end Cert.KernelIdeal.StepIdeal
end
-- ==== Proof.FusedAttnSpec.lean ====
/-
  Attention of projected queries over projected documents, weighted sum of the RAW documents: the specification,
  on the extended reals, as functions of the six argument arrays.

  For a batch "b", a query row "i" and a document row "n":
    q[b,i,e]   = (sum over d of query[b,i,d] * Wq[e,d]) + bq[e]
    k[b,n,e]   = (sum over d of docs[b,n,d]  * Wk[e,d]) + bk[e]
    score[b,i,n] = sum over e of q[b,i,e] * k[b,n,e]
  and the result at "(b,i,d)" is the softmax-weighted sum over the 4096 document rows
    sum over n of (exp (score[b,i,n] - M) / Z) * docs[b,n,d],   M = the largest score of the row, Z = sum of exp (score - M).

  The same quantity taken block by block: the 4096 document rows are cut into 32 blocks of 128, and the running merge
  of "AttnSpec" (running maximum, running normaliser, running weighted sum) is passed over the blocks in order; the
  result is the weighted sum divided by the normaliser after the 32nd block.
-/
import proofs.«174058_j3530463117322_2_alg».proof.Proof.AttnSpec
import Idealize.ShloMosaic.PureOps.Ideal.Laws
import Idealize.ShloMosaic.Lib.ValueIdx

noncomputable section

open scoped BigOperators

namespace Cert.FusedAttn

open Idealize.ShloMosaic Idealize.ShloMosaic.ValueIdx

/-- The query array's shape (also the result's). -/
abbrev SQ : Shape := ⟨3, ![4, 1024, 1024]⟩
/-- The document array's shape. -/
abbrev SD : Shape := ⟨3, ![4, 4096, 1024]⟩
/-- A weight matrix's shape. -/
abbrev SW : Shape := ⟨2, ![1024, 1024]⟩
/-- A bias vector's shape. -/
abbrev SB : Shape := ⟨1, ![1024]⟩

/-- Every entry of an array is a real number (neither infinity). -/
def IsReal {S : Shape} (x : S.Idx → EReal) : Prop := ∀ j, x j ≠ ⊤ ∧ x j ≠ ⊥

/-- The word of minus infinity denotes the bottom of the extended reals. -/
theorem ofBits_neg_inf : Ideal.ofBits .f32 0xFF800000#32 = ⊥ := by
  simp [Ideal.ofBits, Ideal.ieee]

section
variable (query : SQ.Idx → EReal) (docs : SD.Idx → EReal) (Wq : SW.Idx → EReal) (bq : SB.Idx → EReal)
  (Wk : SW.Idx → EReal) (bk : SB.Idx → EReal)

/-- The projected query. -/
def qProj (b : Fin 4) (i e : Fin 1024) : EReal :=
  (∑ d : Fin 1024, query (ix3 b i d) * Wq (ix2 e d)) + bq (ix1 e)

/-- The projected document (the key). -/
def kProj (b : Fin 4) (n : Fin 4096) (e : Fin 1024) : EReal :=
  (∑ d : Fin 1024, docs (ix3 b n d) * Wk (ix2 e d)) + bk (ix1 e)

/-- The unscaled score of query row "i" against document row "n". -/
def score (b : Fin 4) (i : Fin 1024) (n : Fin 4096) : EReal :=
  ∑ e : Fin 1024, qProj query Wq bq b i e * kProj docs Wk bk b n e

/-- The largest score of a row. -/
def rowMax (b : Fin 4) (i : Fin 1024) : EReal :=
  Finset.univ.fold max ⊥ (fun n : Fin 4096 => score query docs Wq bq Wk bk b i n)

/-- "exp (score - row maximum)". -/
def expw (b : Fin 4) (i : Fin 1024) (n : Fin 4096) : EReal :=
  Ideal.exp (score query docs Wq bq Wk bk b i n - rowMax query docs Wq bq Wk bk b i)

/-- The softmax's normaliser. -/
def rowSum (b : Fin 4) (i : Fin 1024) : EReal := ∑ n : Fin 4096, expw query docs Wq bq Wk bk b i n

/-- The softmax-weighted sum of the raw documents. -/
def refOut (b : Fin 4) (i d : Fin 1024) : EReal :=
  ∑ n : Fin 4096, Ideal.div (expw query docs Wq bq Wk bk b i n) (rowSum query docs Wq bq Wk bk b i) * docs (ix3 b n d)

/-- The result array: the softmax-weighted sum at every index. -/
def G : SQ.Idx → EReal := fun j => refOut query docs Wq bq Wk bk (j 0) (j 1) (j 2)

/-- Document row "128 * j + n": row "n" of block "j". -/
def blockRow (j : Fin 32) (n : Fin 128) : Fin 4096 := ⟨128 * j.val + n.val, by have := j.isLt; have := n.isLt; omega⟩

/-- The scores of query row "i" against block "j" ("⊥" past the 32nd block). -/
def sBlk (b : Fin 4) (i : Fin 1024) : ℕ → Fin 128 → EReal := fun j n =>
  if h : j < 32 then score query docs Wq bq Wk bk b i (blockRow ⟨j, h⟩ n) else ⊥

/-- Column "d" of the documents of block "j" ("0" past the 32nd block). -/
def vBlk (b : Fin 4) (d : Fin 1024) : ℕ → Fin 128 → EReal := fun j n =>
  if h : j < 32 then docs (ix3 b (blockRow ⟨j, h⟩ n) d) else 0

/-- The block-by-block result: the running weighted sum over the running normaliser after the 32nd block. -/
def kerOut (b : Fin 4) (i d : Fin 1024) : EReal :=
  Ideal.div (Cert.AttnSpec.acc (sBlk query docs Wq bq Wk bk b i) (vBlk docs b d) 32)
    (Cert.AttnSpec.st (sBlk query docs Wq bq Wk bk b i) 32).2

end

end Cert.FusedAttn

end
-- ==== Proof.AttnState.lean ====
import proofs.«174058_j3530463117322_2_alg».proof.Proof.KernelStepIdeal
import proofs.«174058_j3530463117322_2_alg».proof.Proof.FusedAttnSpec

noncomputable section

open scoped BigOperators
open Idealize.ShloMosaic Idealize.ShloMosaic.ValueIdx

/-!
  The carried buffers as the running merge of the specification.

  For a batch "b", after "k" blocks of its documents have been passed, the running-maximum buffer holds at row "i" the
  merge's running maximum over the first "k" blocks of the scores of query row "i", the normaliser buffer its running
  normaliser, the weighted-sum buffer at "(i, d)" its running weighted sum of column "d" of the documents, and the
  query cache the projected queries of the batch. The reset establishes this for "k = 0", one more block takes "k" to
  "k + 1" (the body's merge IS the specification's), and after the 32nd block the output block is the specification's
  block-by-block result.
-/
namespace Cert.KernelIdeal.AttnState
open Cert.KernelIdeal Cert.KernelIdeal.Gen Cert.KernelIdeal.Step Cert.KernelIdeal.StepIdeal Cert.FusedAttn

section
variable (query : SQ.Idx → EReal) (docs : SD.Idx → EReal) (Wq : SW.Idx → EReal) (bq : SB.Idx → EReal)
  (Wk : SW.Idx → EReal) (bk : SB.Idx → EReal)

/-- What the four carried buffers hold for batch "b" after "k" blocks. -/
def State (b : Fin 4) (k : ℕ) (M L : Vec Ideal S1024x1 .f32) (A : Vec Ideal S1024x1024 .f32)
    (Q : Vec Ideal S1024x1024 .bf16) : Prop :=
  (∀ (i : Fin 1024) (z : Fin 1), M (ix2 i z) = (Cert.AttnSpec.st (sBlk query docs Wq bq Wk bk b i) k).1)
  ∧ (∀ (i : Fin 1024) (z : Fin 1), L (ix2 i z) = (Cert.AttnSpec.st (sBlk query docs Wq bq Wk bk b i) k).2)
  ∧ (∀ i d : Fin 1024, A (ix2 i d) = Cert.AttnSpec.acc (sBlk query docs Wq bq Wk bk b i) (vBlk docs b d) k)
  ∧ (∀ i e : Fin 1024, Q (ix2 i e) = qProj query Wq bq b i e)

variable {query docs Wq bq Wk bk}

/-- With the cache holding the batch's projected queries and the point's windows holding block "k" of the documents and the
    key weights and bias, the body's scores of row "i" are the specification's scores against block "k". -/
theorem scoreOf_eq (b : Fin 4) (k : ℕ) (hk : k < 32) (x1 : Vec Ideal S1x128x1024 .f32) (x4 : Vec Ideal S1024x1024 .bf16)
    (x5 : Vec Ideal S1x1024 .f32) (Q : Vec Ideal S1024x1024 .bf16)
    (h1 : ∀ (z : Fin 1) (n : Fin 128) (d : Fin 1024), x1 (ix3 z n d) = docs (ix3 b (blockRow ⟨k, hk⟩ n) d))
    (h4 : ∀ d e : Fin 1024, x4 (ix2 d e) = Wk (ix2 e d)) (h5 : ∀ (z : Fin 1) (e : Fin 1024), x5 (ix2 z e) = bk (ix1 e))
    (hQ : ∀ i e : Fin 1024, Q (ix2 i e) = qProj query Wq bq b i e) (i : Fin 1024) :
    scoreOf x1 x4 x5 Q i = sBlk query docs Wq bq Wk bk b i k := by
  funext n
  simp only [sBlk, dif_pos hk]
  unfold scoreOf score
  refine Finset.sum_congr rfl fun e _ => ?_
  rw [hQ i e]
  congr 1
  unfold keyOf kProj
  rw [h5]
  congr 1
  exact Finset.sum_congr rfl fun d _ => by rw [h1, h4]

/-- … and column "d" of the block is the specification's values of block "k". -/
theorem vals_eq (b : Fin 4) (k : ℕ) (hk : k < 32) (x1 : Vec Ideal S1x128x1024 .f32)
    (h1 : ∀ (z : Fin 1) (n : Fin 128) (d : Fin 1024), x1 (ix3 z n d) = docs (ix3 b (blockRow ⟨k, hk⟩ n) d)) (d : Fin 1024) :
    (fun n : Fin 128 => x1 (ix3 (0 : Fin 1) n d)) = vBlk docs b d k := by
  funext n
  simp only [vBlk, dif_pos hk]
  exact h1 0 n d

/-- The reset, and the projected queries cached with it: the state before the first block. -/
theorem state_init (b : Fin 4) (x0 : Vec Ideal S1x1024x1024 .f32) (x2 : Vec Ideal S1024x1024 .bf16) (x3 : Vec Ideal S1x1024 .f32)
    (h0 : ∀ (z : Fin 1) (i d : Fin 1024), x0 (ix3 z i d) = query (ix3 b i d))
    (h2 : ∀ d e : Fin 1024, x2 (ix2 d e) = Wq (ix2 e d)) (h3 : ∀ (z : Fin 1) (e : Fin 1024), x3 (ix2 z e) = bq (ix1 e)) :
    State query docs Wq bq Wk bk b 0 (k0_pay4 (F := Ideal)) (k0_pay5 (F := Ideal)) (k0_pay6 (F := Ideal)) (k0_pay7 x0 x2 x3) := by
  refine ⟨fun i z => pay4_apply _, fun i z => pay5_apply _, fun i d => pay6_apply _, fun i e => ?_⟩
  rw [pay7_apply]
  unfold qProj
  rw [h3]
  congr 1
  exact Finset.sum_congr rfl fun d _ => by rw [h0, h2]

/-- One more block: the body's merge is the specification's. -/
theorem state_step (b : Fin 4) (k : ℕ) (hk : k < 32) (x1 : Vec Ideal S1x128x1024 .f32) (x4 : Vec Ideal S1024x1024 .bf16)
    (x5 : Vec Ideal S1x1024 .f32)
    (h1 : ∀ (z : Fin 1) (n : Fin 128) (d : Fin 1024), x1 (ix3 z n d) = docs (ix3 b (blockRow ⟨k, hk⟩ n) d))
    (h4 : ∀ d e : Fin 1024, x4 (ix2 d e) = Wk (ix2 e d)) (h5 : ∀ (z : Fin 1) (e : Fin 1024), x5 (ix2 z e) = bk (ix1 e))
    (M L : Vec Ideal S1024x1 .f32) (A : Vec Ideal S1024x1024 .f32) (Q : Vec Ideal S1024x1024 .bf16)
    (hS : State query docs Wq bq Wk bk b k M L A Q) :
    State query docs Wq bq Wk bk b (k + 1) (mStep x1 x4 x5 Q M) (lStep x1 x4 x5 Q M L) (aStep x1 x4 x5 Q M A) Q := by
  obtain ⟨hM, hL, hA, hQ⟩ := hS
  have hs := scoreOf_eq (query := query) (Wq := Wq) (bq := bq) b k hk x1 x4 x5 Q h1 h4 h5 hQ
  refine ⟨fun i z => ?_, fun i z => ?_, fun i d => ?_, hQ⟩
  · rw [mStep_apply, hM i z, hs i]
    rfl
  · rw [lStep_apply, hM i z, hL i z, hs i]
    rfl
  · rw [aStep_apply, hM i 0, hA i d, hs i, vals_eq b k hk x1 h1 d]
    rfl

/-- After the 32nd block the output block is the specification's block-by-block result. -/
theorem state_out (b : Fin 4) (M L : Vec Ideal S1024x1 .f32) (A : Vec Ideal S1024x1024 .f32) (Q : Vec Ideal S1024x1024 .bf16)
    (hS : State query docs Wq bq Wk bk b 32 M L A Q) (z : Fin 1) (i d : Fin 1024) :
    k0_pay3 (F := Ideal) A L (ix3 z i d) = kerOut query docs Wq bq Wk bk b i d := by
  rw [pay3_apply, hS.2.2.1 i d, hS.2.1 i 0]
  rfl

end

end Cert.KernelIdeal.AttnState
end
-- ==== Proof.KernelBlocks.lean ====
import proofs.«174058_j3530463117322_2_alg».proof.Proof.Gen.KernelIdeal.Frame
import proofs.«174058_j3530463117322_2_alg».proof.Proof.FusedAttnSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-!
  What the kernel's input windows hold at a grid point, entry by entry, in terms of the six argument arrays.

  The grid has 4 × 32 points; point "t" works on batch "t / 32" and on block "t % 32" of that batch's documents.
  Window 0 stages the batch's queries, window 1 the block's 128 document rows; windows 2 and 4 stage the two weight
  matrices as the host transposed them (entry (d, e) is the weight's entry (e, d)), windows 3 and 5 the two bias
  vectors as rows.
-/
namespace Cert.KernelIdeal.Blocks
open Cert.KernelIdeal Cert.KernelIdeal.Gen

variable (m : (ℓ : Loc nD τ sig) → Buf (Elt Ideal) ℓ)

/-- The batch a grid point works on. -/
def batchOf (t : Fin cfg0.N) : Fin 4 := ⟨t.val / 32, by have h : t.val < 128 := lt_of_lt_of_eq t.isLt N_0; omega⟩

/-- The block of documents a grid point works on. -/
def blockOf (t : Fin cfg0.N) : Fin 32 := ⟨t.val % 32, Nat.mod_lt _ (by decide)⟩

/-- The printed index maps at a grid point: the batch is the point's quotient by 32, the block its remainder; the
    weights' and biases' windows stay at their one block. -/
theorem idx_facts : ∀ t : Fin cfg0.N,
    win0_0.index t 0 = t.val / 32 ∧ win0_0.index t 1 = 0 ∧ win0_0.index t 2 = 0
    ∧ win0_1.index t 0 = t.val / 32 ∧ win0_1.index t 1 = t.val % 32 ∧ win0_1.index t 2 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = 0 ∧ win0_5.index t 1 = 0 :=
  (by decide +kernel : ∀ t : Fin grid0.N, _)

/-- Window 0 at a point: the batch's queries. -/
theorem iblk0_apply (c : Dev nD) (t : Fin cfg0.N) (z : Fin 1) (i d : Fin 1024) :
    (iblk m c 0 t : Vec Ideal S1x1024x1024 .f32) (ix3 z i d)
      = m ((c : Thread nD τ).loc main_arg0) (ix3 (batchOf t) i d) := by
  obtain ⟨h0, h1, h2, -⟩ := idx_facts t
  unfold iblk
  rw [View.read_apply]
  show V m c main_arg0 _ = _
  rw [V_main_arg0]
  congr 1
  funext a
  apply Fin.ext
  match a with
  | ⟨0, _⟩ => show win0_0.index t 0 * 1 + 1 * z.val = t.val / 32; rw [h0]; omega
  | ⟨1, _⟩ => show win0_0.index t 1 * 1024 + 1 * i.val = i.val; rw [h1]; omega
  | ⟨2, _⟩ => show win0_0.index t 2 * 1024 + 1 * d.val = d.val; rw [h2]; omega

/-- Window 1 at a point: rows "128 * block + n" of the batch's documents. -/
theorem iblk1_apply (c : Dev nD) (t : Fin cfg0.N) (z : Fin 1) (n : Fin 128) (d : Fin 1024) :
    (iblk m c 1 t : Vec Ideal S1x128x1024 .f32) (ix3 z n d)
      = m ((c : Thread nD τ).loc main_arg1) (ix3 (batchOf t) (Cert.FusedAttn.blockRow (blockOf t) n) d) := by
  obtain ⟨-, -, -, h0, h1, h2, -⟩ := idx_facts t
  unfold iblk
  rw [View.read_apply]
  show V m c main_arg1 _ = _
  rw [V_main_arg1]
  congr 1
  funext a
  apply Fin.ext
  match a with
  | ⟨0, _⟩ => show win0_1.index t 0 * 1 + 1 * z.val = t.val / 32; rw [h0]; omega
  | ⟨1, _⟩ => show win0_1.index t 1 * 128 + 1 * n.val = 128 * (t.val % 32) + n.val; rw [h1]; omega
  | ⟨2, _⟩ => show win0_1.index t 2 * 1024 + 1 * d.val = d.val; rw [h2]; omega

/-- The array window 2 stages, as the host wrote it: the query weights transposed (the change of format is the
    identity on the extended reals). -/
theorem V_v1 (c : Dev nD) :
    (V m c main_v1 : S1024x1024.Idx → EReal)
      = truncf (F := Ideal) .bf16 (transpose S1024x1024 [1, 0] (m ((c : Thread nD τ).loc main_arg2)) transposes_S1024x1024_S1024x1024_1_0) bitsLt_bf16_f32 := by
  dsimp only [Gen.V, Gen.hostOps0]
  after_results <;> rfl

/-- Window 2 at a point: the query weights, transposed. -/
theorem iblk2_apply (c : Dev nD) (t : Fin cfg0.N) (d e : Fin 1024) :
    (iblk m c 2 t : Vec Ideal S1024x1024 .bf16) (ix2 d e) = m ((c : Thread nD τ).loc main_arg2) (ix2 e d) := by
  obtain ⟨-, -, -, -, -, -, h0, h1, -⟩ := idx_facts t
  unfold iblk
  rw [View.read_apply]
  show V m c main_v1 _ = _
  have hemb : ((cfg0.win 2).blk t).view.emb (ix2 d e) = (ix2 d e : S1024x1024.Idx) := by
    funext a
    apply Fin.ext
    match a with
    | ⟨0, _⟩ => show win0_2.index t 0 * 1024 + 1 * d.val = d.val; rw [h0]; omega
    | ⟨1, _⟩ => show win0_2.index t 1 * 1024 + 1 * e.val = e.val; rw [h1]; omega
  refine (congrArg (V m c main_v1) hemb).trans ?_
  rw [V_v1]
  show transpose S1024x1024 [1, 0] (m ((c : Thread nD τ).loc main_arg2)) transposes_S1024x1024_S1024x1024_1_0 (ix2 d e) = _
  exact transpose_ix2_apply _ _ d e

/-- The array window 3 stages, as the host wrote it: the query bias as a one-row matrix. -/
theorem V_v4 (c : Dev nD) :
    (V m c main_v4 : S1x1024.Idx → EReal)
      = shapeCast S1x1024 (m ((c : Thread nD τ).loc main_arg3)) shapeCasts_S1024_S1x1024 := by
  dsimp only [Gen.V, Gen.hostOps0]
  after_results <;> rfl

/-- Window 3 at a point: the query bias as a row. -/
theorem iblk3_apply (c : Dev nD) (t : Fin cfg0.N) (z : Fin 1) (e : Fin 1024) :
    (iblk m c 3 t : Vec Ideal S1x1024 .f32) (ix2 z e) = m ((c : Thread nD τ).loc main_arg3) (ix1 e) := by
  obtain ⟨-, -, -, -, -, -, -, -, h0, h1, -⟩ := idx_facts t
  unfold iblk
  rw [View.read_apply]
  show V m c main_v4 _ = _
  have hemb : ((cfg0.win 3).blk t).view.emb (ix2 z e) = (ix2 z e : S1x1024.Idx) := by
    funext a
    apply Fin.ext
    match a with
    | ⟨0, _⟩ => show win0_3.index t 0 * 1 + 1 * z.val = z.val; rw [h0]; omega
    | ⟨1, _⟩ => show win0_3.index t 1 * 1024 + 1 * e.val = e.val; rw [h1]; omega
  refine (congrArg (V m c main_v4) hemb).trans ?_
  rw [V_v4]
  refine shapeCast_apply (s := S1024) (t := S1x1024) _ shapeCasts_S1024_S1x1024 (ix2 z e) (ix1 e) ?_
  show (S1024.rowMajor (ix1 e)).val = (S1x1024.rowMajor (ix2 z e)).val
  rw [Shape.rowMajor_val_one, Shape.rowMajor_val_two]
  show e.val = z.val * 1024 + e.val
  have hz : z.val = 0 := by have := z.isLt; omega
  rw [hz, Nat.zero_mul, Nat.zero_add]
/-- The array window 4 stages, as the host wrote it: the key weights transposed. -/
theorem V_v3 (c : Dev nD) :
    (V m c main_v3 : S1024x1024.Idx → EReal)
      = truncf (F := Ideal) .bf16 (transpose S1024x1024 [1, 0] (m ((c : Thread nD τ).loc main_arg4)) transposes_S1024x1024_S1024x1024_1_0) bitsLt_bf16_f32 := by
  dsimp only [Gen.V, Gen.hostOps0]
  after_results <;> rfl

/-- Window 4 at a point: the key weights, transposed. -/
theorem iblk4_apply (c : Dev nD) (t : Fin cfg0.N) (d e : Fin 1024) :
    (iblk m c 4 t : Vec Ideal S1024x1024 .bf16) (ix2 d e) = m ((c : Thread nD τ).loc main_arg4) (ix2 e d) := by
  obtain ⟨-, -, -, -, -, -, -, -, -, -, h0, h1, -⟩ := idx_facts t
  unfold iblk
  rw [View.read_apply]
  show V m c main_v3 _ = _
  have hemb : ((cfg0.win 4).blk t).view.emb (ix2 d e) = (ix2 d e : S1024x1024.Idx) := by
    funext a
    apply Fin.ext
    match a with
    | ⟨0, _⟩ => show win0_4.index t 0 * 1024 + 1 * d.val = d.val; rw [h0]; omega
    | ⟨1, _⟩ => show win0_4.index t 1 * 1024 + 1 * e.val = e.val; rw [h1]; omega
  refine (congrArg (V m c main_v3) hemb).trans ?_
  rw [V_v3]
  show transpose S1024x1024 [1, 0] (m ((c : Thread nD τ).loc main_arg4)) transposes_S1024x1024_S1024x1024_1_0 (ix2 d e) = _
  exact transpose_ix2_apply _ _ d e

/-- The array window 5 stages, as the host wrote it: the key bias as a one-row matrix. -/
theorem V_v5 (c : Dev nD) :
    (V m c main_v5 : S1x1024.Idx → EReal)
      = shapeCast S1x1024 (m ((c : Thread nD τ).loc main_arg5)) shapeCasts_S1024_S1x1024 := by
  dsimp only [Gen.V, Gen.hostOps0]
  after_results <;> rfl

/-- Window 5 at a point: the key bias as a row. -/
theorem iblk5_apply (c : Dev nD) (t : Fin cfg0.N) (z : Fin 1) (e : Fin 1024) :
    (iblk m c 5 t : Vec Ideal S1x1024 .f32) (ix2 z e) = m ((c : Thread nD τ).loc main_arg5) (ix1 e) := by
  obtain ⟨-, -, -, -, -, -, -, -, -, -, -, -, h0, h1⟩ := idx_facts t
  unfold iblk
  rw [View.read_apply]
  show V m c main_v5 _ = _
  have hemb : ((cfg0.win 5).blk t).view.emb (ix2 z e) = (ix2 z e : S1x1024.Idx) := by
    funext a
    apply Fin.ext
    match a with
    | ⟨0, _⟩ => show win0_5.index t 0 * 1 + 1 * z.val = z.val; rw [h0]; omega
    | ⟨1, _⟩ => show win0_5.index t 1 * 1024 + 1 * e.val = e.val; rw [h1]; omega
  refine (congrArg (V m c main_v5) hemb).trans ?_
  rw [V_v5]
  refine shapeCast_apply (s := S1024) (t := S1x1024) _ shapeCasts_S1024_S1x1024 (ix2 z e) (ix1 e) ?_
  show (S1024.rowMajor (ix1 e)).val = (S1x1024.rowMajor (ix2 z e)).val
  rw [Shape.rowMajor_val_one, Shape.rowMajor_val_two]
  show e.val = z.val * 1024 + e.val
  have hz : z.val = 0 := by have := z.isLt; omega
  rw [hz, Nat.zero_mul, Nat.zero_add]

end Cert.KernelIdeal.Blocks
end
-- ==== Proof.KernelCover.lean ====
/-
  The output window of the pipeline: which entries of the result array a grid point's block holds.

  The grid has 4 × 32 points; the output window's block at point "t" is the whole [1, 1024, 1024] slab of batch
  "t / 32", and it is written back at the last point of each batch (the points "t" with "t % 32 = 31"). So the entry
  (z, i, d) of the block sits at (t / 32, i, d) of the result array, and every entry of the result array lies in the
  block of a point that writes back: entry (b, i, d) in the block of point "32 * b + 31".
-/
import proofs.«174058_j3530463117322_2_alg».proof.Proof.KernelBlocks
import proofs.«174058_j3530463117322_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx

namespace Cert.KernelIdeal.Cover
open Cert.KernelIdeal Cert.KernelIdeal.Gen Cert.KernelIdeal.Blocks

/-- The output window's block index at point "t" is (t / 32, 0, 0): decided over the grid. -/
theorem idx6 : ∀ t : Fin cfg0.N, win0_6.index t (0 : Fin 3) = t.val / 32 ∧ win0_6.index t (1 : Fin 3) = 0
    ∧ win0_6.index t (2 : Fin 3) = 0 :=
  (by decide +kernel : ∀ t : Fin grid0.N, _)

/-- Entry (z, i, d) of point "t"'s output block sits at (t / 32, i, d) of the result array: on each axis the position is
    the block index times the block's extent plus the coordinate inside the block. -/
theorem emb6 (t : Fin cfg0.N) (z : Fin 1) (i d : Fin 1024) :
    ((cfg0.win 6).blk t).view.emb (ix3 z i d) = ix3 (batchOf t) i d := by
  obtain ⟨e0, e1, e2⟩ := idx6 t
  funext a
  apply Fin.ext
  match a with
  | ⟨0, _⟩ =>
    show win0_6.index t (0 : Fin 3) * 1 + 1 * z.val = t.val / 32
    have hz : z.val < 1 := z.isLt
    omega
  | ⟨1, _⟩ =>
    show win0_6.index t (1 : Fin 3) * 1024 + 1 * i.val = i.val
    omega
  | ⟨2, _⟩ =>
    show win0_6.index t (2 : Fin 3) * 1024 + 1 * d.val = d.val
    omega

/-- An index of the result array is in point "t"'s output block iff each coordinate is in the block's range on its axis. -/
theorem mem_blk6 (t : Fin cfg0.N) (i : S4x1024x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v6).slice (win0_6.rect t)).set ↔ _
  rw [View.set_slice_whole, Rect.mem_set_unit]
  exact Iff.rfl

/-- Every entry of the result array lies in the output block of a point that writes it back: entry (b, i, d) in the
    block of the last point of batch "b". -/
theorem cover6 (i : S4x1024x1024.Idx) :
    ∃ t : Fin cfg0.N, (cfg0.win 6).flush t = true ∧ i ∈ ((cfg0.win 6).blk t).view.set := by
  have hi0 : (i 0).val < 4 := (i 0).isLt
  have hi1 : (i 1).val < 1024 := (i 1).isLt
  have hi2 : (i 2).val < 1024 := (i 2).isLt
  have hN : cfg0.N = 128 := N_0
  obtain ⟨t, ht⟩ : ∃ t : Fin cfg0.N, t.val = 32 * (i 0).val + 31 :=
    ⟨⟨32 * (i 0).val + 31, by rw [hN]; omega⟩, rfl⟩
  obtain ⟨e0, e1, e2⟩ := idx6 t
  refine ⟨t, (flush0_6 t).mpr (by omega), ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 1024 ≤ (i 2).val ∧ (i 2).val < win0_6.index t (2 : Fin 3) * 1024 + 1024
    omega

end Cert.KernelIdeal.Cover

end
-- ==== Proof.KernelValue.lean ====
import proofs.«174058_j3530463117322_2_alg».proof.Proof.AttnState
import proofs.«174058_j3530463117322_2_alg».proof.Proof.KernelBlocks
import proofs.«174058_j3530463117322_2_alg».proof.Proof.KernelCover
import proofs.«174058_j3530463117322_2_alg».proof.Proof.Gen.KernelIdeal.Value
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

/-!
  The idealized kernel's result array is the specification's block-by-block attention of the argument arrays.

  By induction on the grid point, the four carried buffers after point "t" hold the running merge of batch "t / 32"
  after "t % 32 + 1" blocks: the first point of a batch resets and merges block 0, every other point merges its block
  over what the point before left. The last point of a batch writes the weighted sum over the normaliser to the
  batch's block of the result, and the four batches' blocks cover the result array.
-/
namespace Cert.KernelIdeal.AttnValue
open Cert.KernelIdeal Cert.KernelIdeal.Gen Cert.KernelIdeal.Step Cert.KernelIdeal.StepIdeal Cert.KernelIdeal.Blocks
open Cert.KernelIdeal.AttnState Cert.FusedAttn

variable (m : (ℓ : Loc nD τ sig) → Buf (Elt Ideal) ℓ) (ρ : Dev nD → PrngReg)

/-! ## The point's windows in the form the state lemmas take -/

theorem win1 (c : Dev nD) (t : Fin cfg0.N) (b : Fin 4) (k : ℕ) (hk : k < 32) (hb : batchOf t = b) (hkk : (blockOf t).val = k)
    (z : Fin 1) (n : Fin 128) (d : Fin 1024) :
    (iblk m c 1 t : Vec Ideal S1x128x1024 .f32) (ix3 z n d) = m ((c : Thread nD τ).loc main_arg1) (ix3 b (blockRow ⟨k, hk⟩ n) d) := by
  rw [iblk1_apply, hb, show blockOf t = ⟨k, hk⟩ from Fin.ext hkk]

theorem win0 (c : Dev nD) (t : Fin cfg0.N) (b : Fin 4) (hb : batchOf t = b) (z : Fin 1) (i d : Fin 1024) :
    (iblk m c 0 t : Vec Ideal S1x1024x1024 .f32) (ix3 z i d) = m ((c : Thread nD τ).loc main_arg0) (ix3 b i d) := by
  rw [iblk0_apply, hb]

/-! ## The carried buffers after each point -/

/-- The first point of a batch: the reset, the cache, and block 0 merged. -/
theorem stateA (c : Dev nD) (t : Fin cfg0.N) (h0 : t.val % 32 = 0) (h1 : ¬t.val % 32 = 31) (b : Fin 4) (hb : batchOf t = b) :
    State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (0 + 1) (outsAt0 m c t.val t.isLt).2.1 (outsAt0 m c t.val t.isLt).2.2.1 (outsAt0 m c t.val t.isLt).2.2.2.1 (outsAt0 m c t.val t.isLt).2.2.2.2 := by
  have e0 := sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)
  have e1 := sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)
  have e2 := sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)
  have e3 := sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)
  rw [outsAt0_A m c t h0 h1]
  dsimp only
  rw [e0, e1, e2, e3]
  exact state_step b 0 (by decide) (iblk m c 1 t : Vec Ideal S1x128x1024 .f32) (iblk m c 4 t : Vec Ideal S1024x1024 .bf16) (iblk m c 5 t : Vec Ideal S1x1024 .f32)
    (win1 m c t b 0 (by decide) hb h0) (iblk4_apply m c t) (iblk5_apply m c t) _ _ _ _
    (state_init b (iblk m c 0 t : Vec Ideal S1x1024x1024 .f32) (iblk m c 2 t : Vec Ideal S1024x1024 .bf16) (iblk m c 3 t : Vec Ideal S1x1024 .f32) (win0 m c t b hb) (iblk2_apply m c t) (iblk3_apply m c t))

/-- A middle point: its block merged over what the point before left. -/
theorem stateB (c : Dev nD) (t : Fin cfg0.N) (h0 : ¬t.val % 32 = 0) (h1 : ¬t.val % 32 = 31) (b : Fin 4) (k : ℕ) (hk : k < 32)
    (hb : batchOf t = b) (hkk : (blockOf t).val = k)
    (hprev : State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b k (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) :
    State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (k + 1) (outsAt0 m c t.val t.isLt).2.1 (outsAt0 m c t.val t.isLt).2.2.1 (outsAt0 m c t.val t.isLt).2.2.2.1 (outsAt0 m c t.val t.isLt).2.2.2.2 := by
  have e0 := sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have e1 := sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have e2 := sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_B m c t h0 h1]
  dsimp only
  rw [e0, e1, e2]
  unfold sout0_B_3
  exact state_step b k hk (iblk m c 1 t : Vec Ideal S1x128x1024 .f32) (iblk m c 4 t : Vec Ideal S1024x1024 .bf16) (iblk m c 5 t : Vec Ideal S1x1024 .f32)
    (win1 m c t b k hk hb hkk) (iblk4_apply m c t) (iblk5_apply m c t) _ _ _ _ hprev

/-- The last point of a batch: the same merge. -/
theorem stateC (c : Dev nD) (t : Fin cfg0.N) (h0 : ¬t.val % 32 = 0) (h1 : t.val % 32 = 31) (b : Fin 4) (k : ℕ) (hk : k < 32)
    (hb : batchOf t = b) (hkk : (blockOf t).val = k)
    (hprev : State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b k (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) :
    State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (k + 1) (outsAt0 m c t.val t.isLt).2.1 (outsAt0 m c t.val t.isLt).2.2.1 (outsAt0 m c t.val t.isLt).2.2.2.1 (outsAt0 m c t.val t.isLt).2.2.2.2 := by
  have e0 := sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have e1 := sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  have e2 := sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [outsAt0_C m c t h0 h1]
  dsimp only
  rw [e0, e1, e2]
  unfold sout0_C_3
  exact state_step b k hk (iblk m c 1 t : Vec Ideal S1x128x1024 .f32) (iblk m c 4 t : Vec Ideal S1024x1024 .bf16) (iblk m c 5 t : Vec Ideal S1x1024 .f32)
    (win1 m c t b k hk hb hkk) (iblk4_apply m c t) (iblk5_apply m c t) _ _ _ _ hprev

/-- After point "n" the carried buffers hold batch "n / 32"'s merge after "n % 32 + 1" blocks. -/
theorem outs_state (c : Dev nD) : ∀ (n : ℕ) (h : n < cfg0.N),
    State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf ⟨n, h⟩) ((blockOf ⟨n, h⟩).val + 1)
      (outsAt0 m c n h).2.1 (outsAt0 m c n h).2.2.1 (outsAt0 m c n h).2.2.2.1 (outsAt0 m c n h).2.2.2.2
  | 0, h => stateA m c ⟨0, h⟩ rfl (by show ¬0 % 32 = 31; decide) _ rfl
  | n + 1, h => by
    have hN : n + 1 < 128 := lt_of_lt_of_eq h N_0
    by_cases h0 : (n + 1) % 32 = 0
    · have hk : (blockOf ⟨n + 1, h⟩).val = 0 := h0
      rw [hk]
      exact stateA m c ⟨n + 1, h⟩ h0 (by show ¬(n + 1) % 32 = 31; omega) _ rfl
    · have ih := outs_state c n (Nat.lt_of_succ_lt h)
      have hb : batchOf ⟨n, Nat.lt_of_succ_lt h⟩ = batchOf ⟨n + 1, h⟩ :=
        Fin.ext (by show n / 32 = (n + 1) / 32; omega)
      have hk : (blockOf ⟨n + 1, h⟩).val = (blockOf ⟨n, Nat.lt_of_succ_lt h⟩).val + 1 := by
        show (n + 1) % 32 = n % 32 + 1
        omega
      have hk32 : (blockOf ⟨n, Nat.lt_of_succ_lt h⟩).val + 1 < 32 := by
        show n % 32 + 1 < 32
        omega
      rw [hb] at ih
      rw [hk]
      by_cases h1 : (n + 1) % 32 = 31
      · exact stateC m c ⟨n + 1, h⟩ h0 h1 _ _ hk32 rfl hk ih
      · exact stateB m c ⟨n + 1, h⟩ h0 h1 _ _ hk32 rfl hk ih

/-! ## The result array -/

/-- The result: the specification's block-by-block attention of the argument arrays, at every index. -/
def result (c : Dev nD) : Buf (Elt Ideal) ((c : Thread nD τ).loc main_v6) :=
  fun y => kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) (y 2)

/-- With the merge complete, the output block's entry is the result at the entry's place in the array. -/
theorem out_at (c : Dev nD) (t : Fin cfg0.N) (M L : Vec Ideal S1024x1 .f32) (A : Vec Ideal S1024x1024 .f32)
    (Q : Vec Ideal S1024x1024 .bf16)
    (hS : State (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) 32 M L A Q) (j : S1x1024x1024.Idx) :
    k0_pay3 (F := Ideal) A L j = result m c (((cfg0.win 6).blk t).view.emb j) := by
  obtain ⟨z, i, d, rfl⟩ : ∃ (z : Fin 1) (i d : Fin 1024), j = ix3 z i d := ⟨j 0, j 1, j 2, eq_ix3 j⟩
  rw [Cert.KernelIdeal.Cover.emb6 t z i d]
  exact state_out (batchOf t) M L A Q hS z i d

/-- What the last point of a batch writes back is the batch's block of the result. -/
theorem flushed_eq (c : Dev nD) (t : Fin cfg0.N) (hf : (cfg0.win 6).flush t = true) :
    (dats m 0 c).flushed 6 t = ((cfg0.win 6).blk t).view.read (Elt Ideal) (result m c) := by
  have h1 : t.val % 32 = 31 := (flush0_6 t).mp hf
  have h0 : ¬t.val % 32 = 0 := by omega
  have hN : t.val < 128 := lt_of_lt_of_eq t.isLt N_0
  have e6 := out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  rw [Cert.KernelIdeal.Value.flushed6_C m c t h0 h1, e6]
  have hprev := outs_state m c (t.val - 1) (Nat.lt_of_le_of_lt (Nat.sub_le _ _) t.isLt)
  have hb : batchOf ⟨t.val - 1, Nat.lt_of_le_of_lt (Nat.sub_le _ _) t.isLt⟩ = batchOf t :=
    Fin.ext (by show (t.val - 1) / 32 = t.val / 32; omega)
  have hk : (blockOf ⟨t.val - 1, Nat.lt_of_le_of_lt (Nat.sub_le _ _) t.isLt⟩).val + 1 = 31 := by
    show (t.val - 1) % 32 + 1 = 31
    omega
  rw [hb, hk] at hprev
  have hS := state_step (batchOf t) 31 (by decide) (iblk m c 1 t : Vec Ideal S1x128x1024 .f32) (iblk m c 4 t : Vec Ideal S1024x1024 .bf16) (iblk m c 5 t : Vec Ideal S1x1024 .f32)
    (win1 m c t (batchOf t) 31 (by decide) rfl h1) (iblk4_apply m c t) (iblk5_apply m c t) _ _ _ _ hprev
  exact funext fun j => out_at m c t _ _ _ _ hS j

/-- The four batches' last points cover the result array, so it ends holding the result. -/
theorem final (c : Dev nD) : (dats m 0 c).arrAt 6 cfg0.N = result m c :=
  (dats m 0 c).arrAt_eq_of_cover 6 (result m c) (flushed_eq m c) Cert.KernelIdeal.Cover.cover6

/-- The run, read: the result array at the block-by-block attention of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.AttnValue
end
-- ==== Proof.RefIsSpec.lean ====
/-
  The reference computes the specification.

  The reference program projects the queries and the documents ("x · Wᵀ + b"), takes the scores of every query row
  against every document row (a sum over the 1024 features), and weighs the RAW documents by the softmax of each row
  of scores over the 4096 document rows: "exp (s - M) / Z" with "M" the row's largest score and "Z" the sum of the
  "exp (s - M)". Read on the extended reals, where every operation is exact, each of its stages at an index is the
  quantity of the same name in "Cert.FusedAttn":

    stage 3   (b, i, e)  the projected query         qProj
    stage 7   (b, n, e)  the projected document      kProj
    stage 8   (b, i, n)  the score                   score
    stage 11  (b, i)     the row maximum             rowMax     (the maximum with "-∞" of a fold from "-∞": the fold itself)
    stage 15  (b, i, n)  exp (score - maximum)       expw
    stage 16  (b, i)     the normaliser              rowSum     (zero plus the sum: the sum)
    stage 19  (b, i, n)  the softmax weight          expw / rowSum
    stage 20  (b, i, d)  the result                  refOut

  A product of matrices is the plain sum over the contracted axis, a broadcast reads its operand at the index with
  the new axes dropped, and the maximum over the document axis is the fold of "max" over that axis's coordinates.
  Each lemma below is stated at coordinates "(b, i, n)" of literal extents; the index functions of the generated
  read lemmas, composed, are the coordinate constructors ("lidx…", "ridx…", "idx…" below).
-/
import proofs.«174058_j3530463117322_2_alg».proof.Proof.Gen.ReferenceIdeal.Read
import proofs.«174058_j3530463117322_2_alg».proof.Proof.FusedAttnSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.FusedAttn

variable (a0 : (⟨S4x1024x1024, .f32⟩ : BufTy).Contents (Elt Ideal)) (a1 : (⟨S4x4096x1024, .f32⟩ : BufTy).Contents (Elt Ideal))
  (a2 : (⟨S1024x1024, .f32⟩ : BufTy).Contents (Elt Ideal)) (a3 : (⟨S1024, .f32⟩ : BufTy).Contents (Elt Ideal))
  (a4 : (⟨S1024x1024, .f32⟩ : BufTy).Contents (Elt Ideal)) (a5 : (⟨S1024, .f32⟩ : BufTy).Contents (Elt Ideal))

/-! ## Index equations: the read lemmas' index functions at coordinates -/

theorem lidx0 (b : Fin 4) (i e k : Fin 1024) : lidx_main_v0 (ix3 b i e) k = ix3 b i k :=
  funext fun a => Fin.ext (by match a with | ⟨0, _⟩ => rfl | ⟨1, _⟩ => rfl | ⟨2, _⟩ => rfl)
theorem ridx0 (b : Fin 4) (i e k : Fin 1024) : ridx_main_v0 (ix3 b i e) k = ix2 e k :=
  funext fun a => Fin.ext (by match a with | ⟨0, _⟩ => rfl | ⟨1, _⟩ => rfl)
theorem idx12 (b : Fin 4) (i e : Fin 1024) : idx_main_v1 (idx_main_v2 (ix3 b i e)) = ix1 e :=
  funext fun a => Fin.ext (by match a with | ⟨0, _⟩ => rfl)

/-- The projected query, read at an index. -/
theorem v3_at (b : Fin 4) (i e : Fin 1024) :
    val_main_v3 (F := Ideal) a0 a2 a3 (ix3 b i e) = qProj a0 a2 a3 b i e := by
  rw [val_main_v3_apply, val_main_v0_apply, val_main_v2_apply, val_main_v1_apply, idx12]
  simp only [lidx0, ridx0, Ideal.addf_def]
  rfl

theorem lidx4 (b : Fin 4) (n : Fin 4096) (e k : Fin 1024) : lidx_main_v4 (ix3 b n e) k = ix3 b n k :=
  funext fun a => Fin.ext (by match a with | ⟨0, _⟩ => rfl | ⟨1, _⟩ => rfl | ⟨2, _⟩ => rfl)
theorem ridx4 (b : Fin 4) (n : Fin 4096) (e k : Fin 1024) : ridx_main_v4 (ix3 b n e) k = ix2 e k :=
  funext fun a => Fin.ext (by match a with | ⟨0, _⟩ => rfl | ⟨1, _⟩ => rfl)
theorem idx56 (b : Fin 4) (n : Fin 4096) (e : Fin 1024) : idx_main_v5 (idx_main_v6 (ix3 b n e)) = ix1 e :=
  funext fun a => Fin.ext (by match a with | ⟨0, _⟩ => rfl)

/-- The projected document, read at an index. -/
theorem v7_at (b : Fin 4) (n : Fin 4096) (e : Fin 1024) :
    val_main_v7 (F := Ideal) a1 a4 a5 (ix3 b n e) = kProj a1 a4 a5 b n e := by
  rw [val_main_v7_apply, val_main_v4_apply, val_main_v6_apply, val_main_v5_apply, idx56]
  simp only [lidx4, ridx4, Ideal.addf_def]
  rfl

theorem lidx8 (b : Fin 4) (i : Fin 1024) (n : Fin 4096) (k : Fin 1024) : lidx_main_v8 (ix3 b i n) k = ix3 b i k :=
  funext fun a => Fin.ext (by match a with | ⟨0, _⟩ => rfl | ⟨1, _⟩ => rfl | ⟨2, _⟩ => rfl)
theorem ridx8 (b : Fin 4) (i : Fin 1024) (n : Fin 4096) (k : Fin 1024) : ridx_main_v8 (ix3 b i n) k = ix3 b n k :=
  funext fun a => Fin.ext (by match a with | ⟨0, _⟩ => rfl | ⟨1, _⟩ => rfl | ⟨2, _⟩ => rfl)

/-- The score, read at an index. -/
theorem v8_at (b : Fin 4) (i : Fin 1024) (n : Fin 4096) :
    val_main_v8 (F := Ideal) a0 a1 a2 a3 a4 a5 (ix3 b i n) = score a0 a1 a2 a3 a4 a5 b i n := by
  rw [val_main_v8_apply]
  simp only [lidx8, ridx8, v3_at, v7_at]
  rfl

/-! ## The row maximum: the host's reduce over the document axis is the fold of the maximum -/

/-- The reduction's shape relation, in the form the inserted index is defined from. -/
theorem hred : S4x1024x4096.Reduces [2] S4x1024 := by decide

/-- The reduced index "(b, i)" with document row "n" put back is "(b, i, n)". -/
theorem lift_at (b : Fin 4) (i : Fin 1024) (n : Fin (S4x1024x4096.size 2)) :
    hred.lift (ix2 b i) n = ix3 b i (⟨n.val, n.isLt⟩ : Fin 4096) := by
  funext c; apply Fin.ext
  match c with
  | ⟨0, _⟩ => rfl
  | ⟨1, _⟩ => rfl
  | ⟨2, _⟩ => rfl

/-- The row maximum, read at an index: the maximum with minus infinity of the fold from minus infinity. -/
theorem v11_at (b : Fin 4) (i : Fin 1024) :
    val_main_v11 (F := Ideal) a0 a1 a2 a3 a4 a5 (ix2 b i) = rowMax a0 a1 a2 a3 a4 a5 b i := by
  rw [val_main_v11_apply, val_main_v10_apply, val_main_cst_0_apply, Ideal.ofBits_def, ofBits_neg_inf, Ideal.maximumf_def,
    max_bot_left]
  unfold val_main_v9
  rw [Host.reduce_eq_fold_single FloatOps.maximumf _ _ reducesTo_S4x1024x4096_S4x1024_d2 hred h_S_, val_main_cst_apply,
    Ideal.ofBits_def, ofBits_neg_inf]
  have hf : (val_main_v8 (F := Ideal) a0 a1 a2 a3 a4 a5 ∘ hred.lift (ix2 b i))
      = fun n : Fin 4096 => score a0 a1 a2 a3 a4 a5 b i n :=
    funext fun n => by rw [Function.comp_apply, lift_at, v8_at]; rfl
  rw [hf]
  rfl

/-! ## The weights, the normaliser, the result -/

theorem idx1213 (b : Fin 4) (i : Fin 1024) (n : Fin 4096) : idx_main_v12 (idx_main_v13 (ix3 b i n)) = ix2 b i :=
  funext fun a => Fin.ext (by match a with | ⟨0, _⟩ => rfl | ⟨1, _⟩ => rfl)

/-- "exp (score - row maximum)", read at an index. -/
theorem v15_at (b : Fin 4) (i : Fin 1024) (n : Fin 4096) :
    val_main_v15 (F := Ideal) a0 a1 a2 a3 a4 a5 (ix3 b i n) = expw a0 a1 a2 a3 a4 a5 b i n := by
  rw [val_main_v15_apply, val_main_v14_apply, val_main_v13_apply, val_main_v12_apply, idx1213, v8_at, v11_at,
    Ideal.hostUnary_exp_def, Ideal.subf_def]
  rfl

theorem idx16 (b : Fin 4) (i : Fin 1024) (k : Fin 4096) : idx_main_v16 (ix2 b i) k = ix3 b i k :=
  funext fun a => Fin.ext (by match a with | ⟨0, _⟩ => rfl | ⟨1, _⟩ => rfl | ⟨2, _⟩ => rfl)

/-- The normaliser, read at an index: zero plus the sum of the weights. -/
theorem v16_at (b : Fin 4) (i : Fin 1024) :
    val_main_v16 (F := Ideal) a0 a1 a2 a3 a4 a5 (ix2 b i) = rowSum a0 a1 a2 a3 a4 a5 b i := by
  rw [val_main_v16_apply, val_main_cst_1_apply, Ideal.ofBits_def, Ideal.ofBits_zero_f32, zero_add]
  simp only [idx16, v15_at]
  rfl

theorem idx1718 (b : Fin 4) (i : Fin 1024) (n : Fin 4096) : idx_main_v17 (idx_main_v18 (ix3 b i n)) = ix2 b i :=
  funext fun a => Fin.ext (by match a with | ⟨0, _⟩ => rfl | ⟨1, _⟩ => rfl)

/-- A softmax weight, read at an index. -/
theorem v19_at (b : Fin 4) (i : Fin 1024) (n : Fin 4096) :
    val_main_v19 (F := Ideal) a0 a1 a2 a3 a4 a5 (ix3 b i n)
      = Ideal.div (expw a0 a1 a2 a3 a4 a5 b i n) (rowSum a0 a1 a2 a3 a4 a5 b i) := by
  rw [val_main_v19_apply, val_main_v18_apply, val_main_v17_apply, idx1718, v15_at, v16_at, Ideal.hostDivf_def]

theorem lidx20 (b : Fin 4) (i d : Fin 1024) (k : Fin 4096) : lidx_main_v20 (ix3 b i d) k = ix3 b i k :=
  funext fun a => Fin.ext (by match a with | ⟨0, _⟩ => rfl | ⟨1, _⟩ => rfl | ⟨2, _⟩ => rfl)
theorem ridx20 (b : Fin 4) (i d : Fin 1024) (k : Fin 4096) : ridx_main_v20 (ix3 b i d) k = ix3 b k d :=
  funext fun a => Fin.ext (by match a with | ⟨0, _⟩ => rfl | ⟨1, _⟩ => rfl | ⟨2, _⟩ => rfl)

/-- The reference's result array is the specification's: index by index the softmax-weighted sum of the raw
    documents. -/
theorem result_eq :
    val_main_v20 (F := Ideal) a0 a1 a2 a3 a4 a5 = G a0 a1 a2 a3 a4 a5 := by
  funext j
  obtain ⟨b, i, d, rfl⟩ : ∃ (b : Fin 4) (i d : Fin 1024), j = ix3 b i d := ⟨j 0, j 1, j 2, eq_ix3 j⟩
  rw [val_main_v20_apply]
  simp only [lidx20, ridx20, v19_at]
  rfl

end Cert.ReferenceIdeal.RefValue

end
-- ==== Proof.LibOnlineSoftmax.lean ====
/-
  The online softmax law, over the extended reals.

  A row of scores is cut into blocks. The running merge of "AttnSpec" keeps a running maximum "m", a running
  normaliser "l" and a running weighted sum "acc"; passing a block, what was accumulated under the old maximum is
  rescaled by "exp (m - m')" and the block's own terms "exp (s - m')" are added. This module proves that, when no
  score is "⊤", the first block holds a finite score, the blocks after the "n"-th are all "⊥" and the values are
  finite, the merge's output after "n + 1" blocks, "acc * (1 / l)", is the softmax-weighted sum of the values over
  all "N" blocks: "∑ (exp (s - M) / ∑ exp (s - M)) * v" with "M" the largest score of the row.

  The argument: from the first block on the running maximum is a real number "M_k", the largest score of the first
  "k" blocks, and by induction on "k" the normaliser is "∑ exp (s - M_k)" and the weighted sum "∑ exp (s - M_k) * v",
  the sums over the first "k" blocks; the step is "exp (M - M') * exp (a - M) = exp (a - M')" for a real score "a"
  (both sides are "0" for the score "⊥"). All of it is arithmetic of real numbers: every term is the image of a
  real, and the image of a finite sum is the sum of the images. At the end the largest score of the whole row is
  "M_(n+1)", the blocks after the "n"-th add "exp ⊥ = 0", and "(∑ e * v) * (1 / L) = ∑ (e / L) * v" for the positive
  real "L".

  Nothing here mentions a program or an array: the lemma can serve any kernel whose merge is "AttnSpec"'s.
-/
import proofs.«174058_j3530463117322_2_alg».proof.Proof.AttnSpec
import Mathlib.Data.EReal.Operations
import Mathlib.Data.EReal.Inv
import Mathlib.Analysis.SpecialFunctions.Exp

noncomputable section

open scoped BigOperators

namespace Cert.AttnSpec.OnlineSoftmax

open Idealize.ShloMosaic

/-! ## Real numbers inside the extended reals -/

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over "Fin N" of a function of the position that vanishes after position "n < N" is the sum over the first
    "n + 1" positions. -/
theorem sum_fin_dead (N n : ℕ) (hn : n < N) (g : ℕ → ℝ) (hg : ∀ b, n < b → g b = 0) :
    ∑ b : Fin N, g b.val = ∑ b ∈ Finset.range (n + 1), g b := by
  rw [Fin.sum_univ_eq_sum_range g N]
  symm
  apply Finset.sum_subset
  · intro b hb
    rw [Finset.mem_range] at hb ⊢
    omega
  · intro b _ hb
    rw [Finset.mem_range] at hb
    exact hg b (by omega)

/-! ## A weight as a real number -/

/-- "exp (x - M)" as a real: "0" for "x = ⊥". -/
def w (M : ℝ) (x : EReal) : ℝ := (Ideal.exp (x - (M : EReal))).toReal

theorem w_bot (M : ℝ) : w M ⊥ = 0 := by
  unfold w
  rw [EReal.bot_sub, Ideal.exp_bot, EReal.toReal_zero]

theorem w_coe (M a : ℝ) : w M (a : EReal) = Real.exp (a - M) := by
  unfold w
  rw [← EReal.coe_sub, Ideal.exp_coe, EReal.toReal_coe]

/-- Off "⊤", "exp (x - M)" is the image of the real weight. -/
theorem exp_sub_coe (M : ℝ) (x : EReal) (hx : x ≠ ⊤) :
    Ideal.exp (x - (M : EReal)) = ((w M x : ℝ) : EReal) := by
  induction x using EReal.rec with
  | bot => rw [w_bot, EReal.bot_sub, Ideal.exp_bot, EReal.coe_zero]
  | coe a => rw [w_coe, ← EReal.coe_sub, Ideal.exp_coe]
  | top => exact absurd rfl hx

theorem w_nonneg (M : ℝ) (x : EReal) : 0 ≤ w M x := by
  induction x using EReal.rec with
  | bot => rw [w_bot]
  | coe a => rw [w_coe]; exact (Real.exp_pos _).le
  | top => unfold w; rw [EReal.top_sub_coe, Ideal.exp_top, EReal.toReal_top]

/-- Moving the reference point from "M" to "M'" multiplies a weight by "exp (M - M')". -/
theorem w_rescale (M M' : ℝ) (x : EReal) (hx : x ≠ ⊤) : Real.exp (M - M') * w M x = w M' x := by
  induction x using EReal.rec with
  | bot => rw [w_bot, w_bot, mul_zero]
  | coe a =>
    rw [w_coe, w_coe, ← Real.exp_add]
    congr 1
    ring
  | top => exact absurd rfl hx

/-! ## The running maximum -/

section Merge

variable {C : Type} [Fintype C]

theorem blockMax_le (s : C → EReal) (x : EReal) : blockMax s ≤ x ↔ ∀ c, s c ≤ x := by
  unfold blockMax
  rw [Finset.fold_max_le]
  simp

theorem blockMax_lt_top (s : C → EReal) (hs : ∀ c, s c ≠ ⊤) : blockMax s < ⊤ := by
  unfold blockMax
  rw [Finset.fold_max_lt]
  exact ⟨bot_lt_top, fun c _ => lt_top_iff_ne_top.mpr (hs c)⟩

theorem st_succ (s : ℕ → C → EReal) (k : ℕ) :
    st s (k + 1) = (mNext (st s k).1 (s k), lNext (st s k).1 (st s k).2 (s k)) := rfl

theorem acc_succ (s v : ℕ → C → EReal) (k : ℕ) :
    acc s v (k + 1) = accNext (st s k).1 (acc s v k) (s k) (v k) := rfl

/-- The running maximum after "k" blocks is the least upper bound of the scores of the first "k" blocks. -/
theorem st_fst_le (s : ℕ → C → EReal) (k : ℕ) (x : EReal) :
    (st s k).1 ≤ x ↔ ∀ b, b < k → ∀ c, s b c ≤ x := by
  induction k with
  | zero =>
    constructor
    · intro _ b hb
      exact absurd hb (Nat.not_lt_zero b)
    · intro _
      exact bot_le
  | succ k ih =>
    rw [st_succ]
    show max (st s k).1 (blockMax (s k)) ≤ x ↔ _
    rw [max_le_iff, ih, blockMax_le]
    constructor
    · rintro ⟨h1, h2⟩ b hb c
      rcases Nat.lt_succ_iff_lt_or_eq.mp hb with h | h
      · exact h1 b h c
      · rw [h]; exact h2 c
    · intro h
      exact ⟨fun b hb c => h b (Nat.lt_succ_of_lt hb) c, fun c => h k (Nat.lt_succ_self k) c⟩

theorem st_fst_lt_top (s : ℕ → C → EReal) (hs : ∀ b c, s b c ≠ ⊤) (k : ℕ) : (st s k).1 < ⊤ := by
  induction k with
  | zero => exact bot_lt_top
  | succ k ih =>
    rw [st_succ]
    exact max_lt ih (blockMax_lt_top (s k) (hs k))

/-- From the first block on the running maximum is a real number. -/
theorem st_fst_real (s : ℕ → C → EReal) (hs : ∀ b c, s b c ≠ ⊤) (hlive : ∃ c, s 0 c ≠ ⊥) (k : ℕ) :
    ∃ M : ℝ, (st s (k + 1)).1 = (M : EReal) := by
  obtain ⟨c0, hc0⟩ := hlive
  have h1 : (st s (k + 1)).1 ≠ ⊤ := (st_fst_lt_top s hs (k + 1)).ne
  have h2 : (st s (k + 1)).1 ≠ ⊥ := by
    intro h
    have := (st_fst_le s (k + 1) (st s (k + 1)).1).mp le_rfl 0 (Nat.succ_pos k) c0
    rw [h] at this
    exact hc0 (le_bot_iff.mp this)
  exact ⟨(st s (k + 1)).1.toReal, (EReal.coe_toReal h1 h2).symm⟩

/-! ## One block's terms as real sums -/

theorem block_terms (m : EReal) (sk vk : C → EReal) (hsk : ∀ c, sk c ≠ ⊤)
    (hvk : ∀ c, vk c ≠ ⊤ ∧ vk c ≠ ⊥) (M' : ℝ) (hM' : mNext m sk = (M' : EReal)) :
    (∑ c, weight m sk c) = ((∑ c, w M' (sk c) : ℝ) : EReal)
      ∧ (∑ c, weight m sk c * vk c) = ((∑ c, w M' (sk c) * (vk c).toReal : ℝ) : EReal) := by
  constructor
  · rw [coe_sum]
    refine Finset.sum_congr rfl (fun c _ => ?_)
    unfold weight
    rw [hM', exp_sub_coe _ _ (hsk c)]
  · rw [coe_sum]
    refine Finset.sum_congr rfl (fun c _ => ?_)
    unfold weight
    rw [hM', exp_sub_coe _ _ (hsk c), EReal.coe_mul, EReal.coe_toReal (hvk c).1 (hvk c).2]

/-! ## The invariant of the merge -/

/-- After "k + 1" blocks the running maximum is a real "M", the normaliser is "∑ exp (s - M)" and the weighted sum is
    "∑ exp (s - M) * v", the sums over the first "k + 1" blocks. -/
theorem merge_inv (s v : ℕ → C → EReal) (hs : ∀ b c, s b c ≠ ⊤) (hlive : ∃ c, s 0 c ≠ ⊥)
    (hv : ∀ b c, v b c ≠ ⊤ ∧ v b c ≠ ⊥) (k : ℕ) :
    ∃ M : ℝ, (st s (k + 1)).1 = (M : EReal)
      ∧ (st s (k + 1)).2 = ((∑ b ∈ Finset.range (k + 1), ∑ c, w M (s b c) : ℝ) : EReal)
      ∧ acc s v (k + 1)
          = ((∑ b ∈ Finset.range (k + 1), ∑ c, w M (s b c) * (v b c).toReal : ℝ) : EReal) := by
  induction k with
  | zero =>
    obtain ⟨M, hM⟩ := st_fst_real s hs hlive 0
    have hM' : mNext (⊥ : EReal) (s 0) = (M : EReal) := hM
    obtain ⟨t1, t2⟩ := block_terms ⊥ (s 0) (v 0) (hs 0) (hv 0) M hM'
    refine ⟨M, hM, ?_, ?_⟩
    · show lNext (⊥ : EReal) 0 (s 0) = _
      unfold lNext
      rw [mul_zero, zero_add, t1, Finset.sum_range_one]
    · show accNext (⊥ : EReal) 0 (s 0) (v 0) = _
      unfold accNext
      rw [mul_zero, zero_add, t2, Finset.sum_range_one]
  | succ k ih =>
    obtain ⟨M, h1, h2, h3⟩ := ih
    obtain ⟨M', hM'⟩ := st_fst_real s hs hlive (k + 1)
    have hN : mNext (M : EReal) (s (k + 1)) = (M' : EReal) := by
      rw [← h1]; exact hM'
    obtain ⟨t1, t2⟩ := block_terms (M : EReal) (s (k + 1)) (v (k + 1)) (hs (k + 1)) (hv (k + 1)) M' hN
    have ha : alpha (M : EReal) (s (k + 1)) = ((Real.exp (M - M') : ℝ) : EReal) := by
      unfold alpha
      rw [hN, ← EReal.coe_sub, Ideal.exp_coe]
    refine ⟨M', hM', ?_, ?_⟩
    · rw [st_succ]
      show lNext (st s (k + 1)).1 (st s (k + 1)).2 (s (k + 1)) = _
      rw [h1, h2]
      unfold lNext
      rw [ha, t1, ← EReal.coe_mul, ← EReal.coe_add, Finset.sum_range_succ _ (k + 1)]
      congr 2
      rw [Finset.mul_sum]
      refine Finset.sum_congr rfl (fun b _ => ?_)
      rw [Finset.mul_sum]
      exact Finset.sum_congr rfl (fun c _ => w_rescale M M' _ (hs b c))
    · rw [acc_succ, h1, h3]
      unfold accNext
      rw [ha, t2, ← EReal.coe_mul, ← EReal.coe_add, Finset.sum_range_succ _ (k + 1)]
      congr 2
      rw [Finset.mul_sum]
      refine Finset.sum_congr rfl (fun b _ => ?_)
      rw [Finset.mul_sum]
      refine Finset.sum_congr rfl (fun c _ => ?_)
      rw [← mul_assoc, w_rescale M M' _ (hs b c)]

end Merge

end Cert.AttnSpec.OnlineSoftmax

/-! ## The law -/

namespace Cert.AttnSpec

open Idealize.ShloMosaic OnlineSoftmax

theorem out_eq_softmax {C : Type} [Fintype C] (N n : ℕ) (hn : n < N) (s v : ℕ → C → EReal)
    (hs : ∀ b c, s b c ≠ ⊤) (hlive : ∃ c, s 0 c ≠ ⊥) (hdead : ∀ b, n < b → ∀ c, s b c = ⊥)
    (hv : ∀ b c, v b c ≠ ⊤ ∧ v b c ≠ ⊥) :
    out s v (n + 1)
      = ∑ b : Fin N, ∑ c : C,
          Ideal.div (Ideal.exp (s b.val c - Finset.univ.fold max ⊥ (fun p : Fin N × C => s p.1.val p.2)))
            (∑ b' : Fin N, ∑ c' : C, Ideal.exp (s b'.val c' - Finset.univ.fold max ⊥ (fun p : Fin N × C => s p.1.val p.2)))
          * v b.val c := by
  obtain ⟨M, h1, h2, h3⟩ := merge_inv s v hs hlive hv n
  -- the largest score of the whole row is the running maximum after "n + 1" blocks
  have hF : Finset.univ.fold max ⊥ (fun p : Fin N × C => s p.1.val p.2) = (M : EReal) := by
    rw [← h1]
    apply eq_of_forall_ge_iff
    intro x
    rw [Finset.fold_max_le, st_fst_le]
    constructor
    · rintro ⟨_, h⟩ b hb c
      exact h (⟨b, by omega⟩, c) (Finset.mem_univ _)
    · intro h
      refine ⟨bot_le, fun p _ => ?_⟩
      by_cases hp : p.1.val < n + 1
      · exact h p.1.val hp p.2
      · rw [hdead p.1.val (by omega) p.2]
        exact bot_le
  rw [hF]
  -- the normaliser
  obtain ⟨L, hL⟩ : ∃ L : ℝ, L = ∑ b ∈ Finset.range (n + 1), ∑ c, w M (s b c) := ⟨_, rfl⟩
  rw [← hL] at h2
  have hLpos : 0 < L := by
    obtain ⟨c0, hc0⟩ := hlive
    have hpos : 0 < w M (s 0 c0) := by
      have e : s 0 c0 = ((s 0 c0).toReal : EReal) := (EReal.coe_toReal (hs 0 c0) hc0).symm
      rw [e, w_coe]
      exact Real.exp_pos _
    have l1 : w M (s 0 c0) ≤ ∑ c, w M (s 0 c) :=
      Finset.single_le_sum (f := fun c => w M (s 0 c)) (fun c _ => w_nonneg M _) (Finset.mem_univ c0)
    have l2 : (∑ c, w M (s 0 c)) ≤ L := by
      rw [hL]
      exact Finset.single_le_sum (f := fun b => ∑ c, w M (s b c))
        (fun b _ => Finset.sum_nonneg (fun c _ => w_nonneg M _)) (Finset.mem_range.mpr (Nat.succ_pos n))
    linarith
  have hL0 : L ≠ 0 := hLpos.ne'
  have hden : (∑ b' : Fin N, ∑ c' : C, Ideal.exp (s b'.val c' - (M : EReal))) = (L : EReal) := by
    rw [hL, ← sum_fin_dead N n hn (fun b => ∑ c, w M (s b c))
      (fun b hb => Finset.sum_eq_zero (fun c _ => by rw [hdead b hb c, w_bot])), coe_sum]
    refine Finset.sum_congr rfl (fun b _ => ?_)
    rw [coe_sum]
    exact Finset.sum_congr rfl (fun c _ => exp_sub_coe M _ (hs b.val c))
  rw [hden]
  -- the right side as the image of a real sum
  have hR : (∑ b : Fin N, ∑ c : C, Ideal.div (Ideal.exp (s b.val c - (M : EReal))) (L : EReal) * v b.val c)
      = ((∑ b ∈ Finset.range (n + 1), ∑ c, w M (s b c) * (1 / L) * (v b c).toReal : ℝ) : EReal) := by
    rw [← sum_fin_dead N n hn (fun b => ∑ c, w M (s b c) * (1 / L) * (v b c).toReal)
      (fun b hb => Finset.sum_eq_zero (fun c _ => by rw [hdead b hb c, w_bot, zero_mul, zero_mul])), coe_sum]
    refine Finset.sum_congr rfl (fun b _ => ?_)
    rw [coe_sum]
    refine Finset.sum_congr rfl (fun c _ => ?_)
    rw [Ideal.div_coe hL0, exp_sub_coe M _ (hs b.val c), EReal.coe_mul, EReal.coe_mul,
      EReal.coe_toReal (hv b.val c).1 (hv b.val c).2]
  rw [hR]
  -- the left side
  unfold out
  rw [h2, h3, Ideal.div_coe hL0, one_mul, ← EReal.coe_mul]
  congr 1
  rw [Finset.sum_mul]
  refine Finset.sum_congr rfl (fun b _ => ?_)
  rw [Finset.sum_mul]
  refine Finset.sum_congr rfl (fun c _ => ?_)
  ring

end Cert.AttnSpec

end
-- ==== Proof.BlockwiseSoftmax.lean ====
/-
  The block-by-block attention result is the softmax-weighted sum.

  With finite inputs every projected query, every projected document and every score is a real number: a finite sum
  of products of reals plus a real is real. So no score is the top or the bottom of the extended reals, and the
  running merge over the 32 blocks of 128 document rows satisfies the hypotheses of the online softmax law. That law
  gives the merge's output "acc * (1 / l)" as a sum over (block, row in block) of "exp (s - M) / Z * v"; the kernel's
  "acc / l" is the same number because "l" is a positive real. Finally the pairs (block "j", row "n") are exactly the
  document rows "128 * j + n", so the double sum is the sum over the 4096 rows and the largest score over the pairs
  is the largest score of the row.
-/
import proofs.«174058_j3530463117322_2_alg».proof.Proof.FusedAttnSpec
import proofs.«174058_j3530463117322_2_alg».proof.Proof.LibOnlineSoftmax

noncomputable section

open scoped BigOperators

namespace Cert.FusedAttn

open Idealize.ShloMosaic Idealize.ShloMosaic.ValueIdx Cert.AttnSpec Cert.AttnSpec.OnlineSoftmax

/-! ## Real numbers inside the extended reals -/

/-- An extended real that is neither infinity is the image of a real. -/
theorem exists_coe {x : EReal} (h : x ≠ ⊤ ∧ x ≠ ⊥) : ∃ r : ℝ, x = (r : EReal) :=
  ⟨x.toReal, (EReal.coe_toReal h.1 h.2).symm⟩

theorem coe_real (r : ℝ) : (r : EReal) ≠ ⊤ ∧ (r : EReal) ≠ ⊥ :=
  ⟨EReal.coe_ne_top r, EReal.coe_ne_bot r⟩

theorem real_add {x y : EReal} (hx : x ≠ ⊤ ∧ x ≠ ⊥) (hy : y ≠ ⊤ ∧ y ≠ ⊥) : x + y ≠ ⊤ ∧ x + y ≠ ⊥ := by
  obtain ⟨a, rfl⟩ := exists_coe hx
  obtain ⟨c, rfl⟩ := exists_coe hy
  rw [← EReal.coe_add]
  exact coe_real _

theorem real_mul {x y : EReal} (hx : x ≠ ⊤ ∧ x ≠ ⊥) (hy : y ≠ ⊤ ∧ y ≠ ⊥) : x * y ≠ ⊤ ∧ x * y ≠ ⊥ := by
  obtain ⟨a, rfl⟩ := exists_coe hx
  obtain ⟨c, rfl⟩ := exists_coe hy
  rw [← EReal.coe_mul]
  exact coe_real _

/-- A finite sum of reals is real. -/
theorem real_sum {ι : Type} (t : Finset ι) (f : ι → EReal) (h : ∀ i ∈ t, f i ≠ ⊤ ∧ f i ≠ ⊥) :
    (∑ i ∈ t, f i) ≠ ⊤ ∧ (∑ i ∈ t, f i) ≠ ⊥ := by
  classical
  induction t using Finset.induction_on with
  | empty =>
    rw [Finset.sum_empty, ← EReal.coe_zero]
    exact coe_real 0
  | insert a t ha ih =>
    rw [Finset.sum_insert ha]
    exact real_add (h a (Finset.mem_insert_self a t)) (ih (fun i hi => h i (Finset.mem_insert_of_mem hi)))

/-! ## Finite inputs give real scores -/

section Scores

variable (query : SQ.Idx → EReal) (docs : SD.Idx → EReal) (Wq : SW.Idx → EReal) (bq : SB.Idx → EReal)
  (Wk : SW.Idx → EReal) (bk : SB.Idx → EReal)

theorem qProj_real (hq : IsReal query) (hWq : IsReal Wq) (hbq : IsReal bq) (b : Fin 4) (i e : Fin 1024) :
    qProj query Wq bq b i e ≠ ⊤ ∧ qProj query Wq bq b i e ≠ ⊥ := by
  unfold qProj
  exact real_add (real_sum _ _ (fun d _ => real_mul (hq _) (hWq _))) (hbq _)

theorem kProj_real (hd : IsReal docs) (hWk : IsReal Wk) (hbk : IsReal bk) (b : Fin 4) (n : Fin 4096) (e : Fin 1024) :
    kProj docs Wk bk b n e ≠ ⊤ ∧ kProj docs Wk bk b n e ≠ ⊥ := by
  unfold kProj
  exact real_add (real_sum _ _ (fun d _ => real_mul (hd _) (hWk _))) (hbk _)

theorem score_real (hq : IsReal query) (hd : IsReal docs) (hWq : IsReal Wq) (hbq : IsReal bq) (hWk : IsReal Wk)
    (hbk : IsReal bk) (b : Fin 4) (i : Fin 1024) (n : Fin 4096) :
    score query docs Wq bq Wk bk b i n ≠ ⊤ ∧ score query docs Wq bq Wk bk b i n ≠ ⊥ := by
  unfold score
  exact real_sum _ _ (fun e _ => real_mul (qProj_real query Wq bq hq hWq hbq b i e) (kProj_real docs Wk bk hd hWk hbk b n e))

end Scores

/-! ## The kernel's quotient and the merge's output -/

/-- From the first live block on the normaliser is a positive real, so "acc / l" is "acc * (1 / l)". -/
theorem div_eq_out {C : Type} [Fintype C] (s v : ℕ → C → EReal) (hs : ∀ b c, s b c ≠ ⊤) (hlive : ∃ c, s 0 c ≠ ⊥)
    (hv : ∀ b c, v b c ≠ ⊤ ∧ v b c ≠ ⊥) (k : ℕ) :
    Ideal.div (acc s v (k + 1)) (st s (k + 1)).2 = out s v (k + 1) := by
  obtain ⟨M, _, h2, _⟩ := merge_inv s v hs hlive hv k
  obtain ⟨c0, hc0⟩ := hlive
  have hpos : 0 < w M (s 0 c0) := by
    have e : s 0 c0 = ((s 0 c0).toReal : EReal) := (EReal.coe_toReal (hs 0 c0) hc0).symm
    rw [e, w_coe]
    exact Real.exp_pos _
  have l1 : w M (s 0 c0) ≤ ∑ c, w M (s 0 c) :=
    Finset.single_le_sum (f := fun c => w M (s 0 c)) (fun c _ => w_nonneg M _) (Finset.mem_univ c0)
  have l2 : (∑ c, w M (s 0 c)) ≤ ∑ b ∈ Finset.range (k + 1), ∑ c, w M (s b c) :=
    Finset.single_le_sum (f := fun b => ∑ c, w M (s b c))
      (fun b _ => Finset.sum_nonneg (fun c _ => w_nonneg M _)) (Finset.mem_range.mpr (Nat.succ_pos k))
  have hL0 : (∑ b ∈ Finset.range (k + 1), ∑ c, w M (s b c)) ≠ 0 := by
    have : 0 < ∑ b ∈ Finset.range (k + 1), ∑ c, w M (s b c) := by linarith
    exact this.ne'
  unfold out
  rw [h2, Ideal.div_coe hL0, Ideal.div_coe hL0, one_mul]

/-! ## The 32 blocks of 128 rows are the 4096 rows -/

/-- The pair (block "j", row "n" of the block) against the document row "128 * j + n". -/
def blockEquiv : Fin 32 × Fin 128 ≃ Fin 4096 where
  toFun p := blockRow p.1 p.2
  invFun n := (⟨n.val / 128, by have := n.isLt; omega⟩, ⟨n.val % 128, by omega⟩)
  left_inv p := by
    rcases p with ⟨j, c⟩
    have := j.isLt
    have := c.isLt
    apply Prod.ext <;> apply Fin.ext <;> simp only [blockRow] <;> omega
  right_inv n := by
    apply Fin.ext
    simp only [blockRow]
    omega

theorem blockEquiv_apply (p : Fin 32 × Fin 128) : blockEquiv p = blockRow p.1 p.2 := rfl

/-- A sum over the blocks of the sums over a block's rows is the sum over all rows. -/
theorem sum_blocks {A : Type} [AddCommMonoid A] (h : Fin 4096 → A) :
    ∑ j : Fin 32, ∑ c : Fin 128, h (blockRow j c) = ∑ n : Fin 4096, h n :=
  (Fintype.sum_prod_type' (fun j c => h (blockRow j c))).symm.trans
    (Fintype.sum_equiv blockEquiv _ _ (fun _ => rfl))

/-- The largest value over the pairs (block, row of the block) is the largest value over all rows. -/
theorem fold_blocks (f : Fin 4096 → EReal) :
    Finset.univ.fold max ⊥ (fun p : Fin 32 × Fin 128 => f (blockRow p.1 p.2)) = Finset.univ.fold max ⊥ f := by
  apply eq_of_forall_ge_iff
  intro x
  rw [Finset.fold_max_le, Finset.fold_max_le]
  constructor
  · rintro ⟨h0, h⟩
    refine ⟨h0, fun n _ => ?_⟩
    have hn := h (blockEquiv.symm n) (Finset.mem_univ _)
    have e : blockRow (blockEquiv.symm n).1 (blockEquiv.symm n).2 = n := blockEquiv.apply_symm_apply n
    rw [e] at hn
    exact hn
  · rintro ⟨h0, h⟩
    exact ⟨h0, fun p _ => h _ (Finset.mem_univ _)⟩

/-! ## The law over abstract rows -/

/-- A row of 4096 real scores "f" with real values "g", passed to the running merge in 32 blocks of 128: the weighted
    sum over the normaliser after the 32nd block is the softmax-weighted sum of the values. -/
theorem blocks_softmax (s v : ℕ → Fin 128 → EReal) (f g : Fin 4096 → EReal)
    (hsf : ∀ (j : Fin 32) (c : Fin 128), s j.val c = f (blockRow j c))
    (hvg : ∀ (j : Fin 32) (c : Fin 128), v j.val c = g (blockRow j c))
    (hsd : ∀ j, 31 < j → ∀ c, s j c = ⊥) (hvd : ∀ j, 31 < j → ∀ c, v j c = 0)
    (hf : ∀ n, f n ≠ ⊤ ∧ f n ≠ ⊥) (hg : ∀ n, g n ≠ ⊤ ∧ g n ≠ ⊥) :
    Ideal.div (acc s v 32) (st s 32).2
      = ∑ n : Fin 4096, Ideal.div (Ideal.exp (f n - Finset.univ.fold max ⊥ f))
          (∑ n' : Fin 4096, Ideal.exp (f n' - Finset.univ.fold max ⊥ f)) * g n := by
  have hs : ∀ j c, s j c ≠ ⊤ := by
    intro j c
    by_cases h : j < 32
    · rw [hsf ⟨j, h⟩ c]
      exact (hf _).1
    · rw [hsd j (by omega) c]
      exact bot_ne_top
  have hv : ∀ j c, v j c ≠ ⊤ ∧ v j c ≠ ⊥ := by
    intro j c
    by_cases h : j < 32
    · rw [hvg ⟨j, h⟩ c]
      exact hg _
    · rw [hvd j (by omega) c, ← EReal.coe_zero]
      exact coe_real 0
  have hlive : ∃ c, s 0 c ≠ ⊥ := by
    have e : s 0 0 = f (blockRow 0 0) := hsf 0 0
    exact ⟨0, by rw [e]; exact (hf _).2⟩
  rw [div_eq_out s v hs hlive hv 31, out_eq_softmax 32 31 (by norm_num) s v hs hlive hsd hv]
  simp only [hsf, hvg]
  rw [fold_blocks f, sum_blocks (fun n => Ideal.exp (f n - Finset.univ.fold max ⊥ f))]
  exact sum_blocks (fun n => Ideal.div (Ideal.exp (f n - Finset.univ.fold max ⊥ f))
    (∑ n' : Fin 4096, Ideal.exp (f n' - Finset.univ.fold max ⊥ f)) * g n)

/-! ## The kernel's result is the reference's -/

theorem kerOut_eq_refOut (query : SQ.Idx → EReal) (docs : SD.Idx → EReal) (Wq : SW.Idx → EReal) (bq : SB.Idx → EReal)
    (Wk : SW.Idx → EReal) (bk : SB.Idx → EReal)
    (hq : IsReal query) (hd : IsReal docs) (hWq : IsReal Wq) (hbq : IsReal bq) (hWk : IsReal Wk) (hbk : IsReal bk)
    (b : Fin 4) (i d : Fin 1024) :
    kerOut query docs Wq bq Wk bk b i d = refOut query docs Wq bq Wk bk b i d := by
  unfold kerOut refOut rowSum expw rowMax
  refine blocks_softmax (sBlk query docs Wq bq Wk bk b i) (vBlk docs b d)
    (fun n => score query docs Wq bq Wk bk b i n) (fun n => docs (ix3 b n d)) ?_ ?_ ?_ ?_ ?_ ?_
  · intro j c
    unfold sBlk
    rw [dif_pos j.isLt]
  · intro j c
    unfold vBlk
    rw [dif_pos j.isLt]
  · intro j hj c
    unfold sBlk
    rw [dif_neg (by omega)]
  · intro j hj c
    unfold vBlk
    rw [dif_neg (by omega)]
  · intro n
    exact score_real query docs Wq bq Wk bk hq hd hWq hbq hWk hbk b i n
  · intro n
    exact hd _

end Cert.FusedAttn

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteInputs.lean ====
/-
  From the precondition to "every entry of every argument array is a real number".

  The precondition is the conjunction, over the six argument arrays, of "the and-reduction over all entries of
  |x_i| < +∞ is 1", and it is stated to be 1. A conjunction of one-bit words is 1 exactly when both sides are, so each
  of the six reductions is 1; each then says that its array is the image of its real parts, and the image of a real
  is neither infinity.
-/
import proofs.«174058_j3530463117322_2_alg».proof.Pre_finite_inputs
import proofs.«174058_j3530463117322_2_alg».proof.Proof.FusedAttnSpec
import proofs.«174058_j3530463117322_2_alg».proof.Proof.LibFiniteEntries

noncomputable section

namespace Cert.FusedAttn

open Idealize.ShloMosaic Cert.Pre_finite_inputs

/-- An array that is the image of its real parts has only real entries. -/
theorem isReal_of_eq_coe {S : Shape} (x : S.Idx → EReal) (h : x = fun i => (((x i).toReal : ℝ) : EReal)) :
    IsReal x := by
  intro j
  have hj := congrFun h j
  rw [hj]
  exact ⟨EReal.coe_ne_top _, EReal.coe_ne_bot _⟩

/-- The precondition, stated to hold, makes every entry of the six argument arrays real. -/
theorem isReal_of_pre [Cert.Pre_finite_inputs.Facts]
    (x0 : FVec Ideal S4x1024x1024 .f32) (x1 : FVec Ideal S4x4096x1024 .f32) (x2 : FVec Ideal S1024x1024 .f32)
    (x3 : FVec Ideal S1024 .f32) (x4 : FVec Ideal S1024x1024 .f32) (x5 : FVec Ideal S1024 .f32)
    (h : Cert.Pre_finite_inputs.fn (F := Ideal) x0 x1 x2 x3 x4 x5 = (fun _ => 1#1)) :
    IsReal (S := SQ) x0 ∧ IsReal (S := SD) x1 ∧ IsReal (S := SW) x2 ∧ IsReal (S := SB) x3 ∧ IsReal (S := SW) x4
      ∧ IsReal (S := SB) x5 := by
  have h0 := congrFun h ValueIdx.ix0
  dsimp only [Cert.Pre_finite_inputs.fn, Cert.Pre_finite_inputs.fn_part1, andi] at h0
  rw [IntOp.andi_eq_one, IntOp.andi_eq_one, IntOp.andi_eq_one, IntOp.andi_eq_one, IntOp.andi_eq_one] at h0
  obtain ⟨⟨⟨⟨⟨e0, e1⟩, e2⟩, e3⟩, e4⟩, e5⟩ := h0
  exact ⟨isReal_of_eq_coe _ (LibFiniteEntries.real_of_all_abs_lt x0 _ (fun _ => rfl) _ _ _ _ e0),
    isReal_of_eq_coe _ (LibFiniteEntries.real_of_all_abs_lt x1 _ (fun _ => rfl) _ _ _ _ e1),
    isReal_of_eq_coe _ (LibFiniteEntries.real_of_all_abs_lt x2 _ (fun _ => rfl) _ _ _ _ e2),
    isReal_of_eq_coe _ (LibFiniteEntries.real_of_all_abs_lt x3 _ (fun _ => rfl) _ _ _ _ e3),
    isReal_of_eq_coe _ (LibFiniteEntries.real_of_all_abs_lt x4 _ (fun _ => rfl) _ _ _ _ e4),
    isReal_of_eq_coe _ (LibFiniteEntries.real_of_all_abs_lt x5 _ (fun _ => rfl) _ _ _ _ e5)⟩

end Cert.FusedAttn

end
-- ==== Proof.lean ====
/-
  Fused projection and attention over raw documents, against its plain reference: the certificate's claims.

  Both programs compute, for every batch "b", query row "i" and feature "d",
      out[b,i,d] = sum over the 4096 document rows n of softmax_n(score[b,i,·]) * docs[b,n,d],
      score[b,i,n] = (query[b,i,·] Wqᵀ + bq) · (docs[b,n,·] Wkᵀ + bk).
  The reference takes the softmax of the whole row of scores at once. The kernel passes the documents in 32 blocks of
  128 rows and keeps a running maximum, a running normaliser and a running weighted sum per query row, rescaling what
  it has accumulated whenever the maximum grows, and divides at the end. Over the extended reals the two are equal
  when the inputs are finite: every score is then a real number, and the running merge after the last block is the
  weighted sum of exp (score - M) over the normaliser sum of exp (score - M) with M the largest score of the row —
  the step being exp (M - M') * exp (s - M) = exp (s - M').

  The kernel's result array is read off its run (by induction over the grid points the carried buffers hold the
  running merge; the last point of each batch writes the quotient), the reference's off its run operation by
  operation; both are the same function of the argument arrays.
-/
import proofs.«174058_j3530463117322_2_alg».proof.Defs
import proofs.«174058_j3530463117322_2_alg».proof.Proof.Gen.Kernel
import proofs.«174058_j3530463117322_2_alg».proof.Proof.Gen.Kernel.Frame
import proofs.«174058_j3530463117322_2_alg».proof.Proof.Gen.KernelIdeal
import proofs.«174058_j3530463117322_2_alg».proof.Proof.Gen.KernelIdeal.Frame
import proofs.«174058_j3530463117322_2_alg».proof.Proof.Gen.ReferenceIdeal
import proofs.«174058_j3530463117322_2_alg».proof.Proof.Gen.Pre_finite_inputs
import proofs.«174058_j3530463117322_2_alg».proof.Proof.Gen.ReferenceIdeal.Run
import proofs.«174058_j3530463117322_2_alg».proof.Proof.Gen.ReferenceIdeal.Read
import proofs.«174058_j3530463117322_2_alg».proof.Proof.KernelValue
import proofs.«174058_j3530463117322_2_alg».proof.Proof.RefIsSpec
import proofs.«174058_j3530463117322_2_alg».proof.Proof.BlockwiseSoftmax
import proofs.«174058_j3530463117322_2_alg».proof.Proof.FiniteInputs

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments, of finite entries, both programs end with the softmax-weighted sum of
    the documents: the kernel with its block-by-block form, which for finite inputs is the whole-row form the reference
    computes. -/
theorem algebraic : Cert.algebraic_KernelIdeal_ReferenceIdeal := by
  intro m ρ m' ρ' hpre hagree
  refine ⟨fun c => Cert.FusedAttn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.AttnValue.run m ρ)
    obtain ⟨hq, hd, hWq, hbq, hWk, hbk⟩ := Cert.FusedAttn.isReal_of_pre _ _ _ _ _ _ (hpre c)
    funext y
    exact Cert.FusedAttn.kerOut_eq_refOut _ _ _ _ _ _ hq hd hWq hbq hWk hbk (y 0) (y 1) (y 2)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, Cert.ReferenceIdeal.RefValue.result_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
